-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x512 : Shape := ⟨3, ![32, 1024, 512]⟩
abbrev S32x1024x256 : Shape := ⟨3, ![32, 1024, 256]⟩
abbrev S32x1024x1024 : Shape := ⟨3, ![32, 1024, 1024]⟩
abbrev S512x128 : Shape := ⟨2, ![512, 128]⟩
abbrev S256x128 : Shape := ⟨2, ![256, 128]⟩
abbrev S_ : Shape := ⟨0, ![]⟩

class Facts : Prop where
  bcast_S_S32x1024x512 : S_.BroadcastsInDim S32x1024x512 (![] : Fin 0 → Fin S32x1024x512.rank)
  reducesTo_S32x1024x512_S_d0_1_2 : S32x1024x512.ReducesTo [0, 1, 2] S_
  h_S_ : 0 < S_.numel
  bcast_S_S32x1024x256 : S_.BroadcastsInDim S32x1024x256 (![] : Fin 0 → Fin S32x1024x256.rank)
  reducesTo_S32x1024x256_S_d0_1_2 : S32x1024x256.ReducesTo [0, 1, 2] S_
  bcast_S_S512x128 : S_.BroadcastsInDim S512x128 (![] : Fin 0 → Fin S512x128.rank)
  reducesTo_S512x128_S_d0_1 : S512x128.ReducesTo [0, 1] S_
  bcast_S_S256x128 : S_.BroadcastsInDim S256x128 (![] : Fin 0 → Fin S256x128.rank)
  reducesTo_S256x128_S_d0_1 : S256x128.ReducesTo [0, 1] S_

variable [Facts]

def fn_part1 {F : FTy → Type} [FloatOps F] (main_arg5 : FVec F S256x128 .f32) (main_v13 : IVec S_ 1) (main_v16 : IVec S512x128 1) : IVec S_ 1 :=
  let main_c_5 : IVec S_ 1 := constantI S_ 1 1#1
  let main_v17 : IVec S_ 1 := (fun x v => Host.reduce IntOp.andi x v reducesTo_S512x128_S_d0_1 h_S_) main_v16 main_c_5
  let main_v18 : IVec S_ 1 := andi main_v13 main_v17
  let main_v19 : FVec F S256x128 .f32 := Host.absf main_arg5
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  main_v23

def fn {F : FTy → Type} [FloatOps F] (main_arg0 : FVec F S32x1024x512 .f32) (main_arg1 : FVec F S32x1024x256 .f32) (main_arg2 : FVec F S32x1024x256 .f32) (main_arg3 : IVec S32x1024x1024 32) (main_arg4 : FVec F S512x128 .f32) (main_arg5 : FVec F S256x128 .f32) : IVec S_ 1 :=
  let main_v0 : FVec F S32x1024x512 .f32 := Host.absf main_arg0
  let main_cst : FVec F S_ .f32 := constant S_ .f32 0x7F800000#32
  let main_v1 : FVec F S32x1024x512 .f32 := broadcastInDim S32x1024x512 ![] bcast_S_S32x1024x512 main_cst
  let main_v2 : IVec S32x1024x512 1 := cmpf .olt main_v0 main_v1
  let main_c : IVec S_ 1 := constantI S_ 1 1#1
  let main_v3 : IVec S_ 1 := (fun x v => Host.reduce IntOp.andi x v reducesTo_S32x1024x512_S_d0_1_2 h_S_) main_v2 main_c
  let main_v4 : FVec F S32x1024x256 .f32 := Host.absf main_arg1
  let main_cst_0 : FVec F S_ .f32 := constant S_ .f32 0x7F800000#32
  let main_v5 : FVec F S32x1024x256 .f32 := broadcastInDim S32x1024x256 ![] bcast_S_S32x1024x256 main_cst_0
  let main_v6 : IVec S32x1024x256 1 := cmpf .olt main_v4 main_v5
  let main_c_1 : IVec S_ 1 := constantI S_ 1 1#1
  let main_v7 : IVec S_ 1 := (fun x v => Host.reduce IntOp.andi x v reducesTo_S32x1024x256_S_d0_1_2 h_S_) main_v6 main_c_1
  let main_v8 : IVec S_ 1 := andi main_v3 main_v7
  let main_v9 : FVec F S32x1024x256 .f32 := Host.absf main_arg2
  let main_cst_2 : FVec F S_ .f32 := constant S_ .f32 0x7F800000#32
  let main_v10 : FVec F S32x1024x256 .f32 := broadcastInDim S32x1024x256 ![] bcast_S_S32x1024x256 main_cst_2
  let main_v11 : IVec S32x1024x256 1 := cmpf .olt main_v9 main_v10
  let main_c_3 : IVec S_ 1 := constantI S_ 1 1#1
  let main_v12 : IVec S_ 1 := (fun x v => Host.reduce IntOp.andi x v reducesTo_S32x1024x256_S_d0_1_2 h_S_) main_v11 main_c_3
  let main_v13 : IVec S_ 1 := andi main_v8 main_v12
  let main_v14 : FVec F S512x128 .f32 := Host.absf main_arg4
  let main_cst_4 : FVec F S_ .f32 := constant S_ .f32 0x7F800000#32
  let main_v15 : FVec F S512x128 .f32 := broadcastInDim S512x128 ![] bcast_S_S512x128 main_cst_4
  let main_v16 : IVec S512x128 1 := cmpf .olt main_v14 main_v15
  fn_part1 (F := F) main_arg5 main_v13 main_v16
-- ==== Kernel.lean ====
abbrev S32x1024x512 : Shape := ⟨3, ![32, 1024, 512]⟩
abbrev S32x1024x256 : Shape := ⟨3, ![32, 1024, 256]⟩
abbrev S32x1024x1024 : Shape := ⟨3, ![32, 1024, 1024]⟩
abbrev S512x128 : Shape := ⟨2, ![512, 128]⟩
abbrev S256x128 : Shape := ⟨2, ![256, 128]⟩
abbrev S1x256x512 : Shape := ⟨3, ![1, 256, 512]⟩
abbrev S1x1024x256 : Shape := ⟨3, ![1, 1024, 256]⟩
abbrev S1x256x1024 : Shape := ⟨3, ![1, 256, 1024]⟩
abbrev S1x256x256 : Shape := ⟨3, ![1, 256, 256]⟩
abbrev S1024x128 : Shape := ⟨2, ![1024, 128]⟩
abbrev S1024x256 : Shape := ⟨2, ![1024, 256]⟩
abbrev S256x512 : Shape := ⟨2, ![256, 512]⟩
abbrev S256x1024 : Shape := ⟨2, ![256, 1024]⟩
abbrev S256 : Shape := ⟨1, ![256]⟩
abbrev S256x1 : Shape := ⟨2, ![256, 1]⟩
abbrev S256x256 : Shape := ⟨2, ![256, 256]⟩

abbrev nBuf : Space → Nat
  | .hbm => 8
  | .vmem => 15
  | .smem => 0
  | _ => 0

abbrev bufTy : (tb : Table) → Fin (tcTables nBuf tb) → BufTy
  | .hbm, ⟨0, _⟩ => ⟨S32x1024x512, .f32⟩
  | .hbm, ⟨1, _⟩ => ⟨S32x1024x256, .f32⟩
  | .hbm, ⟨2, _⟩ => ⟨S32x1024x256, .f32⟩
  | .hbm, ⟨3, _⟩ => ⟨S32x1024x1024, .i32⟩
  | .hbm, ⟨4, _⟩ => ⟨S512x128, .f32⟩
  | .hbm, ⟨5, _⟩ => ⟨S256x128, .f32⟩
  | .hbm, ⟨6, _⟩ => ⟨S32x1024x256, .f32⟩
  | .hbm, ⟨7, _⟩ => ⟨S32x1024x1024, .f32⟩
  | .local _ .vmem, ⟨0, _⟩ => ⟨S1x256x512, .f32⟩
  | .local _ .vmem, ⟨1, _⟩ => ⟨S1x256x512, .f32⟩
  | .local _ .vmem, ⟨2, _⟩ => ⟨S1x1024x256, .f32⟩
  | .local _ .vmem, ⟨3, _⟩ => ⟨S1x1024x256, .f32⟩
  | .local _ .vmem, ⟨4, _⟩ => ⟨S1x1024x256, .f32⟩
  | .local _ .vmem, ⟨5, _⟩ => ⟨S1x1024x256, .f32⟩
  | .local _ .vmem, ⟨6, _⟩ => ⟨S1x256x1024, .i32⟩
  | .local _ .vmem, ⟨7, _⟩ => ⟨S1x256x1024, .i32⟩
  | .local _ .vmem, ⟨8, _⟩ => ⟨S512x128, .f32⟩
  | .local _ .vmem, ⟨9, _⟩ => ⟨S256x128, .f32⟩
  | .local _ .vmem, ⟨10, _⟩ => ⟨S1x256x256, .f32⟩
  | .local _ .vmem, ⟨11, _⟩ => ⟨S1x256x256, .f32⟩
  | .local _ .vmem, ⟨12, _⟩ => ⟨S1x256x1024, .f32⟩
  | .local _ .vmem, ⟨13, _⟩ => ⟨S1x256x1024, .f32⟩
  | .local _ .vmem, ⟨14, _⟩ => ⟨S1024x128, .bf16⟩
  | _, _ => ⟨S32x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  packedbf16_S1024x128_S1024x128_0_0 : (Rect.unit (s := S1024x128) ![0, 0] S1024x128.size inb_S1024x128_S1024x128_0_0).PackedRows (EltTy.packing .bf16)
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  inb_S512x128_S512x128_0_0 : ∀ a, (![0, 0] : Fin 2 → Nat) a + S512x128.size a ≤ S512x128.size a
  h_S512x128 : 0 < S512x128.numel
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  reduces_S256x1024_S256 : S256x1024.Reduces [1] S256
  shapeCasts_S256_S256x1 : S256.ShapeCasts S256x1
  broadcasts_S256x1_S256x1024 : S256x1.Broadcasts S256x1024
  shapeCasts_S256x1024_S1x256x1024 : S256x1024.ShapeCasts S1x256x1024
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  shapeCasts_S256x256_S1x256x256 : S256x256.ShapeCasts S1x256x256
  dot_S1024x256_S256x128_S1024x128_1_0_0_1_n_n_wf : DotDims.WF S1024x256 S256x128 S1024x128 [1] [0] [0] [1] [] []
  dot_S256x512_S512x128_S256x128_1_0_0_1_n_n_wf : DotDims.WF S256x512 S512x128 S256x128 [1] [0] [0] [1] [] []
  dot_S256x128_S1024x128_S256x1024_1_1_0_0_n_n_wf : DotDims.WF S256x128 S1024x128 S256x1024 [1] [1] [0] [0] [] []
  dot_S256x1024_S1024x256_S256x256_1_0_0_1_n_n_wf : DotDims.WF S256x1024 S1024x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x512.size a ≤ S32x1024x512.size a
  hwx0_0 : ∀ i : grid0.Coords, EltTy.bits .f32 = 32 ∨ (Rect.block (s := S32x1024x512) S1x256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x256.size a ≤ S32x1024x256.size a
  hwx0_1 : ∀ i : grid0.Coords, EltTy.bits .f32 = 32 ∨ (Rect.block (s := S32x1024x256) S1x1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x256.size a ≤ S32x1024x256.size a
  hwx0_2 : ∀ i : grid0.Coords, EltTy.bits .f32 = 32 ∨ (Rect.block (s := S32x1024x256) S1x1024x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x1024.size a ≤ S32x1024x1024.size a
  hwx0_3 : ∀ i : grid0.Coords, EltTy.bits .i32 = 32 ∨ (Rect.block (s := S32x1024x1024) S1x256x1024.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x128.size a ≤ S512x128.size a
  hwx0_4 : ∀ i : grid0.Coords, EltTy.bits .f32 = 32 ∨ (Rect.block (s := S512x128) S512x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .f32 = 32 ∨ (Rect.block (s := S256x128) S256x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256x256.size a ≤ S32x1024x256.size a
  hwx0_6 : ∀ i : grid0.Coords, EltTy.bits .f32 = 32 ∨ (Rect.block (s := S32x1024x256) S1x256x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x256x1024.size a ≤ S32x1024x1024.size a
  hwx0_7 : ∀ i : grid0.Coords, EltTy.bits .f32 = 32 ∨ (Rect.block (s := S32x1024x1024) S1x256x1024.size (cc0_transform_7 i) (hinb0_7 i)).WholeWords (EltTy.packing .f32)

variable [Facts₀]

def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S256x512_S512x128_S256x128_1_0_0_1_n_n : DotDims S256x512 S512x128 S256x128 where
  lhsContracting := [1]
  rhsContracting := [0]
  lhsNonContracting := [0]
  rhsNonContracting := [1]
  lhsBatch := []
  rhsBatch := []
  wf := dot_S256x512_S512x128_S256x128_1_0_0_1_n_n_wf
def dot_S256x128_S1024x128_S256x1024_1_1_0_0_n_n : DotDims S256x128 S1024x128 S256x1024 where
  lhsContracting := [1]
  rhsContracting := [1]
  lhsNonContracting := [0]
  rhsNonContracting := [0]
  lhsBatch := []
  rhsBatch := []
  wf := dot_S256x128_S1024x128_S256x1024_1_1_0_0_n_n_wf
def dot_S256x1024_S1024x256_S256x256_1_0_0_1_n_n : DotDims S256x1024 S1024x256 S256x256 where
  lhsContracting := [1]
  rhsContracting := [0]
  lhsNonContracting := [0]
  rhsNonContracting := [1]
  lhsBatch := []
  rhsBatch := []
  wf := dot_S256x1024_S1024x256_S256x256_1_0_0_1_n_n_wf

abbrev win0_0 : Pipeline.Window sig grid0 :=
  Pipeline.Window.ofSpec (Memref.whole main_arg0) S1x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x256x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0_0) S1x256x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_1) S1x256x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S32x1024x512 : Shape := ⟨3, ![32, 1024, 512]⟩
abbrev S32x1024x256 : Shape := ⟨3, ![32, 1024, 256]⟩
abbrev S32x1024x1024 : Shape := ⟨3, ![32, 1024, 1024]⟩
abbrev S512x128 : Shape := ⟨2, ![512, 128]⟩
abbrev S256x128 : Shape := ⟨2, ![256, 128]⟩
abbrev S32x1024x128 : Shape := ⟨3, ![32, 1024, 128]⟩
abbrev S_ : Shape := ⟨0, ![]⟩
abbrev S32x1024 : Shape := ⟨2, ![32, 1024]⟩
abbrev S32x1024x1 : Shape := ⟨3, ![32, 1024, 1]⟩

abbrev nBuf : Space → Nat
  | .hbm => 34
  | .vmem => 0
  | .smem => 0
  | _ => 0

abbrev bufTy : (tb : Table) → Fin (tcTables nBuf tb) → BufTy
  | .hbm, ⟨0, _⟩ => ⟨S32x1024x512, .f32⟩
  | .hbm, ⟨1, _⟩ => ⟨S32x1024x256, .f32⟩
  | .hbm, ⟨2, _⟩ => ⟨S32x1024x256, .f32⟩
  | .hbm, ⟨3, _⟩ => ⟨S32x1024x1024, .i32⟩
  | .hbm, ⟨4, _⟩ => ⟨S512x128, .f32⟩
  | .hbm, ⟨5, _⟩ => ⟨S256x128, .f32⟩
  | .hbm, ⟨6, _⟩ => ⟨S32x1024x128, .f32⟩
  | .hbm, ⟨7, _⟩ => ⟨S32x1024x128, .f32⟩
  | .hbm, ⟨8, _⟩ => ⟨S32x1024x1024, .f32⟩
  | .hbm, ⟨9, _⟩ => ⟨S_, .f32⟩
  | .hbm, ⟨10, _⟩ => ⟨S_, .f32⟩
  | .hbm, ⟨11, _⟩ => ⟨S32x1024x1024, .f32⟩
  | .hbm, ⟨12, _⟩ => ⟨S32x1024x1024, .f32⟩
  | .hbm, ⟨13, _⟩ => ⟨S_, .i32⟩
  | .hbm, ⟨14, _⟩ => ⟨S32x1024x1024, .i32⟩
  | .hbm, ⟨15, _⟩ => ⟨S32x1024x1024, .i1⟩
  | .hbm, ⟨16, _⟩ => ⟨S_, .f32⟩
  | .hbm, ⟨17, _⟩ => ⟨S32x1024x1024, .f32⟩
  | .hbm, ⟨18, _⟩ => ⟨S32x1024x1024, .f32⟩
  | .hbm, ⟨19, _⟩ => ⟨S_, .f32⟩
  | .hbm, ⟨20, _⟩ => ⟨S32x1024, .f32⟩
  | .hbm, ⟨21, _⟩ => ⟨S_, .f32⟩
  | .hbm, ⟨22, _⟩ => ⟨S32x1024, .f32⟩
  | .hbm, ⟨23, _⟩ => ⟨S32x1024, .f32⟩
  | .hbm, ⟨24, _⟩ => ⟨S32x1024x1, .f32⟩
  | .hbm, ⟨25, _⟩ => ⟨S32x1024x1024, .f32⟩
  | .hbm, ⟨26, _⟩ => ⟨S32x1024x1024, .f32⟩
  | .hbm, ⟨27, _⟩ => ⟨S32x1024x1024, .f32⟩
  | .hbm, ⟨28, _⟩ => ⟨S_, .f32⟩
  | .hbm, ⟨29, _⟩ => ⟨S32x1024, .f32⟩
  | .hbm, ⟨30, _⟩ => ⟨S32x1024x1, .f32⟩
  | .hbm, ⟨31, _⟩ => ⟨S32x1024x1024, .f32⟩
  | .hbm, ⟨32, _⟩ => ⟨S32x1024x1024, .f32⟩
  | .hbm, ⟨33, _⟩ => ⟨S32x1024x256, .f32⟩
  | _, _ => ⟨S32x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_call0_v0 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩

abbrev nD : Nat := 1
abbrev τ : Topo := Topo.v7x

variable {F : FTy → Type} [FloatOps F]

class Facts₀ : Prop where
  bcast_S_S32x1024x1024 : S_.BroadcastsInDim S32x1024x1024 (![] : Fin 0 → Fin S32x1024x1024.rank)
  reducesTo_S32x1024x1024_S32x1024_d2 : S32x1024x1024.ReducesTo [2] S32x1024
  h_S_ : 0 < S_.numel
  bcast_S_S32x1024 : S_.BroadcastsInDim S32x1024 (![] : Fin 0 → Fin S32x1024.rank)
  bcast_S32x1024_S32x1024x1_0_1 : S32x1024.BroadcastsInDim S32x1024x1 (![0, 1] : Fin 2 → Fin S32x1024x1.rank)
  bcast_S32x1024x1_S32x1024x1024_0_1_2 : S32x1024x1.BroadcastsInDim S32x1024x1024 (![0, 1, 2] : Fin 3 → Fin S32x1024x1024.rank)
  dot_S32x1024x512_S512x128_S32x1024x128_2_0_01_1_n_n_wf : DotDims.WF S32x1024x512 S512x128 S32x1024x128 [2] [0] [0, 1] [1] [] []
  dot_S32x1024x256_S256x128_S32x1024x128_2_0_01_1_n_n_wf : DotDims.WF S32x1024x256 S256x128 S32x1024x128 [2] [0] [0, 1] [1] [] []
  dot_S32x1024x128_S32x1024x128_S32x1024x1024_2_2_1_1_0_0_wf : DotDims.WF S32x1024x128 S32x1024x128 S32x1024x1024 [2] [2] [1] [1] [0] [0]
  dot_S32x1024x1024_S32x1024x256_S32x1024x256_2_1_1_2_0_0_wf : DotDims.WF S32x1024x1024 S32x1024x256 S32x1024x256 [2] [1] [1] [2] [0] [0]

variable [Facts₀]

def dot_S32x1024x512_S512x128_S32x1024x128_2_0_01_1_n_n : DotDims S32x1024x512 S512x128 S32x1024x128 where
  lhsContracting := [2]
  rhsContracting := [0]
  lhsNonContracting := [0, 1]
  rhsNonContracting := [1]
  lhsBatch := []
  rhsBatch := []
  wf := dot_S32x1024x512_S512x128_S32x1024x128_2_0_01_1_n_n_wf
def dot_S32x1024x256_S256x128_S32x1024x128_2_0_01_1_n_n : DotDims S32x1024x256 S256x128 S32x1024x128 where
  lhsContracting := [2]
  rhsContracting := [0]
  lhsNonContracting := [0, 1]
  rhsNonContracting := [1]
  lhsBatch := []
  rhsBatch := []
  wf := dot_S32x1024x256_S256x128_S32x1024x128_2_0_01_1_n_n_wf
def dot_S32x1024x128_S32x1024x128_S32x1024x1024_2_2_1_1_0_0 : DotDims S32x1024x128 S32x1024x128 S32x1024x1024 where
  lhsContracting := [2]
  rhsContracting := [2]
  lhsNonContracting := [1]
  rhsNonContracting := [1]
  lhsBatch := [0]
  rhsBatch := [0]
  wf := dot_S32x1024x128_S32x1024x128_S32x1024x1024_2_2_1_1_0_0_wf
def dot_S32x1024x1024_S32x1024x256_S32x1024x256_2_1_1_2_0_0 : DotDims S32x1024x1024 S32x1024x256 S32x1024x256 where
  lhsContracting := [2]
  rhsContracting := [1]
  lhsNonContracting := [1]
  rhsNonContracting := [2]
  lhsBatch := [0]
  rhsBatch := [0]
  wf := dot_S32x1024x1024_S32x1024x256_S32x1024x256_2_1_1_2_0_0_wf

class Facts : Prop extends Facts₀ where

variable [Facts]
-- ==== Proof.Pieces.lean ====
/-
  What one run of the kernel body leaves in its two output blocks and in the scratch it keeps between grid points,
  as values of the blocks it was given.  At the first q-tile of a batch the body projects the batch's keys, stores
  them in the scratch and reads them back; at the other q-tiles it reads what the scratch already holds.  Either
  way the attention block is the softmax payload of the query block, the query weights, the projected keys and the
  mask block, and the context block is its product with the value block.
-/
import proofs.«176372_j15135464751719_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- At a batch's first q-tile the scratch ends holding the projected keys of the batch's key block. -/
theorem scratchA (c : Dev nD) (i : grid0.Coords) (arg2 : Memref sig .tc .vmem S1x256x512 .f32) (harg2 : arg2.IsWhole) (arg3 : Memref sig .tc .vmem S1x1024x256 .f32) (harg3 : arg3.IsWhole) (arg4 : Memref sig .tc .vmem S1x1024x256 .f32) (harg4 : arg4.IsWhole) (arg5 : Memref sig .tc .vmem S1x256x1024 .i32) (harg5 : arg5.IsWhole) (arg6 : Memref sig .tc .vmem S512x128 .f32) (harg6 : arg6.IsWhole) (arg7 : Memref sig .tc .vmem S256x128 .f32) (harg7 : arg7.IsWhole) (arg8 : Memref sig .tc .vmem S1x256x256 .f32) (harg8 : arg8.IsWhole) (arg9 : Memref sig .tc .vmem S1x256x1024 .f32) (harg9 : arg9.IsWhole) (arg10 : Memref sig .tc .vmem S1024x128 .bf16) (harg10 : arg10.IsWhole) (hc0 : cond0_0 i) (x0 : Vec F S1x256x512 .f32) (x1 : Vec F S1x1024x256 .f32) (x2 : Vec F S1x1024x256 .f32) (x3 : Vec F S1x256x1024 .i32) (x4 : Vec F S512x128 .f32) (x5 : Vec F S256x128 .f32) :
    sout0_A_0 c i arg2 harg2 arg3 harg3 arg4 harg4 arg5 harg5 arg6 harg6 arg7 harg7 arg8 harg8 arg9 harg9 arg10 harg10 hc0 x0 x1 x2 x3 x4 x5 = k0_pay2 x1 x5 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 x0 x1 x2 x3 x4 x5)]
  unfold kernelRun0_A
  dsimp only
  try sl_unfold_words
  rw [View.canon_unit_zero hz2]
  simp only [View.readAt_eq_ld, harg2.read_unread, harg3.read_unread, harg4.read_unread, harg5.read_unread, harg6.read_unread,
    harg7.read_unread, harg10.read_unread, View.ld_unit_zero (S := S1x256x512) hz3, View.ld_unit_zero (S := S1x1024x256) hz3,
    View.ld_unit_zero (S := S1x256x1024) hz3, View.ld_unit_zero (S := S512x128) hz2, View.ld_unit_zero (S := S256x128) hz2,
    View.ld_unit_zero (S := S1024x128) hz2]

/-- At a batch's first q-tile the attention block is the softmax payload over the keys just projected. -/
theorem attnA (c : Dev nD) (i : grid0.Coords) (arg2 : Memref sig .tc .vmem S1x256x512 .f32) (harg2 : arg2.IsWhole) (arg3 : Memref sig .tc .vmem S1x1024x256 .f32) (harg3 : arg3.IsWhole) (arg4 : Memref sig .tc .vmem S1x1024x256 .f32) (harg4 : arg4.IsWhole) (arg5 : Memref sig .tc .vmem S1x256x1024 .i32) (harg5 : arg5.IsWhole) (arg6 : Memref sig .tc .vmem S512x128 .f32) (harg6 : arg6.IsWhole) (arg7 : Memref sig .tc .vmem S256x128 .f32) (harg7 : arg7.IsWhole) (arg8 : Memref sig .tc .vmem S1x256x256 .f32) (harg8 : arg8.IsWhole) (arg9 : Memref sig .tc .vmem S1x256x1024 .f32) (harg9 : arg9.IsWhole) (arg10 : Memref sig .tc .vmem S1024x128 .bf16) (harg10 : arg10.IsWhole) (hc0 : cond0_0 i) (x0 : Vec F S1x256x512 .f32) (x1 : Vec F S1x1024x256 .f32) (x2 : Vec F S1x1024x256 .f32) (x3 : Vec F S1x256x1024 .i32) (x4 : Vec F S512x128 .f32) (x5 : Vec F S256x128 .f32) :
    out0_A_7 c i arg2 harg2 arg3 harg3 arg4 harg4 arg5 harg5 arg6 harg6 arg7 harg7 arg8 harg8 arg9 harg9 arg10 harg10 hc0 x0 x1 x2 x3 x4 x5 = k0_pay4 x0 x4 (k0_pay2 x1 x5) x3 := by
  unfold out0_A_7
  rw [View.read_writes_eq_canon _ _ _ (cover0_A_7 c i arg2 harg2 arg3 harg3 arg4 harg4 arg5 harg5 arg6 harg6 arg7 harg7 arg8 harg8 arg9 harg9 arg10 harg10 hc0 x0 x1 x2 x3 x4 x5)]
  unfold kernelRun0_A
  dsimp only
  try sl_unfold_words
  rw [View.canon_unit_zero (S := S1x256x1024) hz3, View.readCov_unit_zero (S := S1024x128) _ hz2]
  simp only [View.readAt_eq_ld, harg2.read_unread, harg3.read_unread, harg4.read_unread, harg5.read_unread, harg6.read_unread,
    harg7.read_unread, harg10.read_unread, View.ld_unit_zero (S := S1x256x512) hz3, View.ld_unit_zero (S := S1x1024x256) hz3,
    View.ld_unit_zero (S := S1x256x1024) hz3, View.ld_unit_zero (S := S512x128) hz2, View.ld_unit_zero (S := S256x128) hz2,
    View.ld_unit_zero (S := S1024x128) hz2]

/-- At a batch's first q-tile the context block is that attention payload times the value block. -/
theorem ctxA (c : Dev nD) (i : grid0.Coords) (arg2 : Memref sig .tc .vmem S1x256x512 .f32) (harg2 : arg2.IsWhole) (arg3 : Memref sig .tc .vmem S1x1024x256 .f32) (harg3 : arg3.IsWhole) (arg4 : Memref sig .tc .vmem S1x1024x256 .f32) (harg4 : arg4.IsWhole) (arg5 : Memref sig .tc .vmem S1x256x1024 .i32) (harg5 : arg5.IsWhole) (arg6 : Memref sig .tc .vmem S512x128 .f32) (harg6 : arg6.IsWhole) (arg7 : Memref sig .tc .vmem S256x128 .f32) (harg7 : arg7.IsWhole) (arg8 : Memref sig .tc .vmem S1x256x256 .f32) (harg8 : arg8.IsWhole) (arg9 : Memref sig .tc .vmem S1x256x1024 .f32) (harg9 : arg9.IsWhole) (arg10 : Memref sig .tc .vmem S1024x128 .bf16) (harg10 : arg10.IsWhole) (hc0 : cond0_0 i) (x0 : Vec F S1x256x512 .f32) (x1 : Vec F S1x1024x256 .f32) (x2 : Vec F S1x1024x256 .f32) (x3 : Vec F S1x256x1024 .i32) (x4 : Vec F S512x128 .f32) (x5 : Vec F S256x128 .f32) :
    out0_A_6 c i arg2 harg2 arg3 harg3 arg4 harg4 arg5 harg5 arg6 harg6 arg7 harg7 arg8 harg8 arg9 harg9 arg10 harg10 hc0 x0 x1 x2 x3 x4 x5 = k0_pay1 (k0_pay3 x0 x4 (k0_pay2 x1 x5) x3) x2 := by
  unfold out0_A_6
  rw [View.read_writes_eq_canon _ _ _ (cover0_A_6 c i arg2 harg2 arg3 harg3 arg4 harg4 arg5 harg5 arg6 harg6 arg7 harg7 arg8 harg8 arg9 harg9 arg10 harg10 hc0 x0 x1 x2 x3 x4 x5)]
  unfold kernelRun0_A
  dsimp only
  try sl_unfold_words
  rw [View.canon_unit_zero (S := S1x256x256) hz3, View.readCov_unit_zero (S := S1024x128) _ hz2]
  simp only [View.readAt_eq_ld, harg2.read_unread, harg3.read_unread, harg4.read_unread, harg5.read_unread, harg6.read_unread,
    harg7.read_unread, harg10.read_unread, View.ld_unit_zero (S := S1x256x512) hz3, View.ld_unit_zero (S := S1x1024x256) hz3,
    View.ld_unit_zero (S := S1x256x1024) hz3, View.ld_unit_zero (S := S512x128) hz2, View.ld_unit_zero (S := S256x128) hz2,
    View.ld_unit_zero (S := S1024x128) hz2]

/-- At a later q-tile the attention block is the softmax payload over what the scratch holds. -/
theorem attnB (c : Dev nD) (i : grid0.Coords) (arg2 : Memref sig .tc .vmem S1x256x512 .f32) (harg2 : arg2.IsWhole) (arg3 : Memref sig .tc .vmem S1x1024x256 .f32) (harg3 : arg3.IsWhole) (arg4 : Memref sig .tc .vmem S1x1024x256 .f32) (harg4 : arg4.IsWhole) (arg5 : Memref sig .tc .vmem S1x256x1024 .i32) (harg5 : arg5.IsWhole) (arg6 : Memref sig .tc .vmem S512x128 .f32) (harg6 : arg6.IsWhole) (arg7 : Memref sig .tc .vmem S256x128 .f32) (harg7 : arg7.IsWhole) (arg8 : Memref sig .tc .vmem S1x256x256 .f32) (harg8 : arg8.IsWhole) (arg9 : Memref sig .tc .vmem S1x256x1024 .f32) (harg9 : arg9.IsWhole) (arg10 : Memref sig .tc .vmem S1024x128 .bf16) (harg10 : arg10.IsWhole) (hc0 : ¬cond0_0 i) (x0 : Vec F S1x256x512 .f32) (x1 : Vec F S1x1024x256 .f32) (x2 : Vec F S1x1024x256 .f32) (x3 : Vec F S1x256x1024 .i32) (x4 : Vec F S512x128 .f32) (x5 : Vec F S256x128 .f32) (xs0 : Vec F S1024x128 .bf16) :
    out0_B_7 c i arg2 harg2 arg3 harg3 arg4 harg4 arg5 harg5 arg6 harg6 arg7 harg7 arg8 harg8 arg9 harg9 arg10 harg10 hc0 x0 x1 x2 x3 x4 x5 xs0 = k0_pay4 x0 x4 xs0 x3 := by
  unfold out0_B_7
  rw [View.read_writes_eq_canon _ _ _ (cover0_B_7 c i arg2 harg2 arg3 harg3 arg4 harg4 arg5 harg5 arg6 harg6 arg7 harg7 arg8 harg8 arg9 harg9 arg10 harg10 hc0 x0 x1 x2 x3 x4 x5 xs0)]
  unfold kernelRun0_B
  dsimp only
  try sl_unfold_words
  rw [View.canon_unit_zero (S := S1x256x1024) hz3]
  simp only [View.readAt_eq_ld, harg2.read_unread, harg3.read_unread, harg4.read_unread, harg5.read_unread, harg6.read_unread,
    harg7.read_unread, harg10.read_unread, View.ld_unit_zero (S := S1x256x512) hz3, View.ld_unit_zero (S := S1x1024x256) hz3,
    View.ld_unit_zero (S := S1x256x1024) hz3, View.ld_unit_zero (S := S512x128) hz2, View.ld_unit_zero (S := S256x128) hz2,
    View.ld_unit_zero (S := S1024x128) hz2]

/-- At a later q-tile the context block is that attention payload times the value block. -/
theorem ctxB (c : Dev nD) (i : grid0.Coords) (arg2 : Memref sig .tc .vmem S1x256x512 .f32) (harg2 : arg2.IsWhole) (arg3 : Memref sig .tc .vmem S1x1024x256 .f32) (harg3 : arg3.IsWhole) (arg4 : Memref sig .tc .vmem S1x1024x256 .f32) (harg4 : arg4.IsWhole) (arg5 : Memref sig .tc .vmem S1x256x1024 .i32) (harg5 : arg5.IsWhole) (arg6 : Memref sig .tc .vmem S512x128 .f32) (harg6 : arg6.IsWhole) (arg7 : Memref sig .tc .vmem S256x128 .f32) (harg7 : arg7.IsWhole) (arg8 : Memref sig .tc .vmem S1x256x256 .f32) (harg8 : arg8.IsWhole) (arg9 : Memref sig .tc .vmem S1x256x1024 .f32) (harg9 : arg9.IsWhole) (arg10 : Memref sig .tc .vmem S1024x128 .bf16) (harg10 : arg10.IsWhole) (hc0 : ¬cond0_0 i) (x0 : Vec F S1x256x512 .f32) (x1 : Vec F S1x1024x256 .f32) (x2 : Vec F S1x1024x256 .f32) (x3 : Vec F S1x256x1024 .i32) (x4 : Vec F S512x128 .f32) (x5 : Vec F S256x128 .f32) (xs0 : Vec F S1024x128 .bf16) :
    out0_B_6 c i arg2 harg2 arg3 harg3 arg4 harg4 arg5 harg5 arg6 harg6 arg7 harg7 arg8 harg8 arg9 harg9 arg10 harg10 hc0 x0 x1 x2 x3 x4 x5 xs0 = k0_pay1 (k0_pay3 x0 x4 xs0 x3) x2 := by
  unfold out0_B_6
  rw [View.read_writes_eq_canon _ _ _ (cover0_B_6 c i arg2 harg2 arg3 harg3 arg4 harg4 arg5 harg5 arg6 harg6 arg7 harg7 arg8 harg8 arg9 harg9 arg10 harg10 hc0 x0 x1 x2 x3 x4 x5 xs0)]
  unfold kernelRun0_B
  dsimp only
  try sl_unfold_words
  rw [View.canon_unit_zero (S := S1x256x256) hz3]
  simp only [View.readAt_eq_ld, harg2.read_unread, harg3.read_unread, harg4.read_unread, harg5.read_unread, harg6.read_unread,
    harg7.read_unread, harg10.read_unread, View.ld_unit_zero (S := S1x256x512) hz3, View.ld_unit_zero (S := S1x1024x256) hz3,
    View.ld_unit_zero (S := S1x256x1024) hz3, View.ld_unit_zero (S := S512x128) hz2, View.ld_unit_zero (S := S256x128) hz2,
    View.ld_unit_zero (S := S1024x128) hz2]

end Cert.KernelIdeal.Pieces

end
-- ==== Proof.Blocks.lean ====
/-
  Where the grid's points sit in the arrays.  Point t of the 32 × 4 grid is q-tile t mod 4 of batch t div 4.
  Its query and mask blocks are rows 256·(t mod 4) … 256·(t mod 4) + 255 of that batch, its key and value blocks the
  whole batch, its two weight blocks the whole weight arrays; its two output blocks sit where the query block does.
-/
import proofs.«176372_j15135464751719_2_alg».proof.Proof.Gen.KernelIdeal.Frame
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.Blocks

open Cert.KernelIdeal Cert.KernelIdeal.Gen

variable {F : FTy → Type} [FloatOps F]
variable (m : (ℓ : Loc nD τ sig) → Buf (Elt F) ℓ)

/-- The block index of every window at every grid point, decided over the 128 points. -/
theorem idx_facts : ∀ t : Fin cfg0.N,
    (win0_0.index t (0 : Fin 3) = t.val / 4 ∧ win0_0.index t (1 : Fin 3) = t.val % 4 ∧ win0_0.index t (2 : Fin 3) = 0)
    ∧ (win0_1.index t (0 : Fin 3) = t.val / 4 ∧ win0_1.index t (1 : Fin 3) = 0 ∧ win0_1.index t (2 : Fin 3) = 0)
    ∧ (win0_2.index t (0 : Fin 3) = t.val / 4 ∧ win0_2.index t (1 : Fin 3) = 0 ∧ win0_2.index t (2 : Fin 3) = 0)
    ∧ (win0_3.index t (0 : Fin 3) = t.val / 4 ∧ win0_3.index t (1 : Fin 3) = t.val % 4 ∧ win0_3.index t (2 : Fin 3) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 3) = t.val / 4 ∧ win0_6.index t (1 : Fin 3) = t.val % 4 ∧ win0_6.index t (2 : Fin 3) = 0)
    ∧ (win0_7.index t (0 : Fin 3) = t.val / 4 ∧ win0_7.index t (1 : Fin 3) = t.val % 4 ∧ win0_7.index t (2 : Fin 3) = 0) :=
  (by decide +kernel : ∀ t : Fin grid0.N, _)

/-- The query block at point t: rows 256·(t mod 4) + r of batch t div 4. -/
theorem qBlock_apply (c : Dev nD) (t : Fin cfg0.N) (y : S1x256x512.Idx) (k : S32x1024x512.Idx)
    (h0 : (k 0).val = t.val / 4) (h1 : (k 1).val = 256 * (t.val % 4) + (y 1).val) (h2 : (k 2).val = (y 2).val) :
    (iblk m c 0 t : Vec F S1x256x512 .f32) y = (V m c main_arg0 : S32x1024x512.Idx → Elt F .f32) k := by
  have hf := idx_facts t
  have hy0 : (y 0).val < 1 := (y 0).isLt
  unfold iblk
  rw [View.read_apply]
  show V m c main_arg0 _ = V m c main_arg0 _
  refine congrArg (V m c main_arg0) (funext fun a => Fin.ext ?_)
  match a with
  | ⟨0, _⟩ => show win0_0.index t (0 : Fin 3) * 1 + 1 * (y 0).val = (k 0).val; rw [hf.1.1, h0]; omega
  | ⟨1, _⟩ => show win0_0.index t (1 : Fin 3) * 256 + 1 * (y 1).val = (k 1).val; rw [hf.1.2.1, h1]; omega
  | ⟨2, _⟩ => show win0_0.index t (2 : Fin 3) * 512 + 1 * (y 2).val = (k 2).val; rw [hf.1.2.2, h2]; omega

/-- The key block at point t: batch t div 4, whole. -/
theorem kBlock_apply (c : Dev nD) (t : Fin cfg0.N) (y : S1x1024x256.Idx) (k : S32x1024x256.Idx)
    (h0 : (k 0).val = t.val / 4) (h1 : (k 1).val = (y 1).val) (h2 : (k 2).val = (y 2).val) :
    (iblk m c 1 t : Vec F S1x1024x256 .f32) y = (V m c main_arg1 : S32x1024x256.Idx → Elt F .f32) k := by
  have hf := idx_facts t
  have hy0 : (y 0).val < 1 := (y 0).isLt
  unfold iblk
  rw [View.read_apply]
  show V m c main_arg1 _ = V m c main_arg1 _
  refine congrArg (V m c main_arg1) (funext fun a => Fin.ext ?_)
  match a with
  | ⟨0, _⟩ => show win0_1.index t (0 : Fin 3) * 1 + 1 * (y 0).val = (k 0).val; rw [hf.2.1.1, h0]; omega
  | ⟨1, _⟩ => show win0_1.index t (1 : Fin 3) * 1024 + 1 * (y 1).val = (k 1).val; rw [hf.2.1.2.1, h1]; omega
  | ⟨2, _⟩ => show win0_1.index t (2 : Fin 3) * 256 + 1 * (y 2).val = (k 2).val; rw [hf.2.1.2.2, h2]; omega

/-- The value block at point t: batch t div 4, whole. -/
theorem vBlock_apply (c : Dev nD) (t : Fin cfg0.N) (y : S1x1024x256.Idx) (k : S32x1024x256.Idx)
    (h0 : (k 0).val = t.val / 4) (h1 : (k 1).val = (y 1).val) (h2 : (k 2).val = (y 2).val) :
    (iblk m c 2 t : Vec F S1x1024x256 .f32) y = (V m c main_arg2 : S32x1024x256.Idx → Elt F .f32) k := by
  have hf := idx_facts t
  have hy0 : (y 0).val < 1 := (y 0).isLt
  unfold iblk
  rw [View.read_apply]
  show V m c main_arg2 _ = V m c main_arg2 _
  refine congrArg (V m c main_arg2) (funext fun a => Fin.ext ?_)
  match a with
  | ⟨0, _⟩ => show win0_2.index t (0 : Fin 3) * 1 + 1 * (y 0).val = (k 0).val; rw [hf.2.2.1.1, h0]; omega
  | ⟨1, _⟩ => show win0_2.index t (1 : Fin 3) * 1024 + 1 * (y 1).val = (k 1).val; rw [hf.2.2.1.2.1, h1]; omega
  | ⟨2, _⟩ => show win0_2.index t (2 : Fin 3) * 256 + 1 * (y 2).val = (k 2).val; rw [hf.2.2.1.2.2, h2]; omega

/-- The mask block at point t: rows 256·(t mod 4) + r of batch t div 4. -/
theorem maskBlock_apply (c : Dev nD) (t : Fin cfg0.N) (y : S1x256x1024.Idx) (k : S32x1024x1024.Idx)
    (h0 : (k 0).val = t.val / 4) (h1 : (k 1).val = 256 * (t.val % 4) + (y 1).val) (h2 : (k 2).val = (y 2).val) :
    (iblk m c 3 t : Vec F S1x256x1024 .i32) y = (V m c main_arg3 : S32x1024x1024.Idx → Elt F .i32) k := by
  have hf := idx_facts t
  have hy0 : (y 0).val < 1 := (y 0).isLt
  unfold iblk
  rw [View.read_apply]
  show V m c main_arg3 _ = V m c main_arg3 _
  refine congrArg (V m c main_arg3) (funext fun a => Fin.ext ?_)
  match a with
  | ⟨0, _⟩ => show win0_3.index t (0 : Fin 3) * 1 + 1 * (y 0).val = (k 0).val; rw [hf.2.2.2.1.1, h0]; omega
  | ⟨1, _⟩ => show win0_3.index t (1 : Fin 3) * 256 + 1 * (y 1).val = (k 1).val; rw [hf.2.2.2.1.2.1, h1]; omega
  | ⟨2, _⟩ => show win0_3.index t (2 : Fin 3) * 1024 + 1 * (y 2).val = (k 2).val; rw [hf.2.2.2.1.2.2, h2]; omega

/-- The query weights' block at every point: the whole array. -/
theorem wqBlock_apply (c : Dev nD) (t : Fin cfg0.N) (y : S512x128.Idx) :
    (iblk m c 4 t : Vec F S512x128 .f32) y = (V m c main_arg4 : S512x128.Idx → Elt F .f32) y := by
  have hf := idx_facts t
  unfold iblk
  rw [View.read_apply]
  show V m c main_arg4 _ = V m c main_arg4 _
  refine congrArg (V m c main_arg4) (funext fun a => Fin.ext ?_)
  match a with
  | ⟨0, _⟩ => show win0_4.index t (0 : Fin 2) * 512 + 1 * (y 0).val = (y 0).val; rw [hf.2.2.2.2.1.1]; omega
  | ⟨1, _⟩ => show win0_4.index t (1 : Fin 2) * 128 + 1 * (y 1).val = (y 1).val; rw [hf.2.2.2.2.1.2]; omega

/-- The key weights' block at every point: the whole array. -/
theorem wkBlock_apply (c : Dev nD) (t : Fin cfg0.N) (y : S256x128.Idx) :
    (iblk m c 5 t : Vec F S256x128 .f32) y = (V m c main_arg5 : S256x128.Idx → Elt F .f32) y := by
  have hf := idx_facts t
  unfold iblk
  rw [View.read_apply]
  show V m c main_arg5 _ = V m c main_arg5 _
  refine congrArg (V m c main_arg5) (funext fun a => Fin.ext ?_)
  match a with
  | ⟨0, _⟩ => show win0_5.index t (0 : Fin 2) * 256 + 1 * (y 0).val = (y 0).val; rw [hf.2.2.2.2.2.1.1]; omega
  | ⟨1, _⟩ => show win0_5.index t (1 : Fin 2) * 128 + 1 * (y 1).val = (y 1).val; rw [hf.2.2.2.2.2.1.2]; omega

end Cert.KernelIdeal.Blocks

end
-- ==== Proof.Spec.lean ====
/-
  Scaled dot-product attention with learned query and key projections, as one function of the six argument arrays,
  entry by entry, on the extended reals.

  One query row against all the keys (the row-level functions below):
    project qrow wq f      = Σ_d qrow[d] · wq[d,f]
    rowLogit … s           = −1e9 where mrow[s] = 0, (Σ_f project qrow wq f · kp[s,f]) · (1/16) elsewhere
    rowWeight … s          = exp (rowLogit s − max_s' rowLogit s')
    rowAttn … s            = rowWeight s / Σ_s' rowWeight s'
    rowCtx … vcol          = Σ_s rowAttn s · vcol[s]
  and the whole arrays: for a batch b, a query row t and a key row s, with keyProj b s f = Σ_d k[b,s,d] · Wk[d,f],
    attn[b,t,s] = rowAttn (q[b,t,·]) Wq (keyProj b) (mask[b,t,·]) s      ctx[b,t,d] = rowCtx … (v[b,·,d]).
  The float literals stay as the words the programs spell; the three that a proof has to evaluate (256, 1/16, and
  √256 = 16) are evaluated here, once.
-/
import Idealize.ShloMosaic.PureOps.Ideal.Laws
import Idealize.ShloMosaic.Lib.ValueIdx

noncomputable section

open scoped BigOperators

namespace Cert.Attention

open Idealize.ShloMosaic Idealize.ShloMosaic.ValueIdx

/-- The word of 256.0 denotes the real 256. -/
theorem ofBits_256 : Ideal.ofBits .f32 0x43800000#32 = ((256 : ℝ) : EReal) := by
  simp [Ideal.ofBits, Ideal.ieee, -EReal.coe_mul]; norm_num

/-- The word of 0.0625 denotes the real 1/16. -/
theorem ofBits_sixteenth : Ideal.ofBits .f32 0x3D800000#32 = ((1 / 16 : ℝ) : EReal) := by
  simp [Ideal.ofBits, Ideal.ieee, -EReal.coe_mul]; norm_num

/-- The square root of 256 is 16. -/
theorem sqrt_256 : Ideal.sqrt ((256 : ℝ) : EReal) = ((16 : ℝ) : EReal) := by
  show (if (256 : ℝ) < 0 then (⊥ : EReal) else ((Real.sqrt 256 : ℝ) : EReal)) = _
  rw [if_neg (by norm_num), show (256 : ℝ) = 16 ^ 2 by norm_num, Real.sqrt_sq (by norm_num)]

/-- Dividing by √256 is multiplying by the word of 0.0625, on every extended real. -/
theorem div_sqrt_256 (x : EReal) :
    Ideal.div x (Ideal.sqrt (Ideal.ofBits .f32 0x43800000#32)) = x * Ideal.ofBits .f32 0x3D800000#32 := by
  rw [ofBits_256, sqrt_256, ofBits_sixteenth, Ideal.div_coe (by norm_num : (16 : ℝ) ≠ 0)]

/-! ## One query row -/

section row
variable (qrow : Fin 512 → EReal) (wq : Fin 512 → Fin 128 → EReal) (kp : Fin 1024 → Fin 128 → EReal)
  (mrow : Fin 1024 → BitVec 32)

/-- A row projected onto feature f. -/
def project (f : Fin 128) : EReal := ∑ d : Fin 512, qrow d * wq d f

/-- The scaled score against key row s, or −1e9 where the mask is zero. -/
def rowLogit (s : Fin 1024) : EReal :=
  Scalar.select (IntOp.cmpi .eq (mrow s) 0#32) (Ideal.ofBits .f32 0xCE6E6B28#32)
    ((∑ f : Fin 128, project qrow wq f * kp s f) * Ideal.ofBits .f32 0x3D800000#32)

/-- The row's largest logit (from −∞). -/
def rowMax : EReal :=
  (Finset.univ : Finset (Fin 1024)).fold max (Ideal.ofBits .f32 0xFF800000#32) (rowLogit qrow wq kp mrow)

/-- The unnormalized weight of key row s. -/
def rowWeight (s : Fin 1024) : EReal := Ideal.exp (rowLogit qrow wq kp mrow s - rowMax qrow wq kp mrow)

/-- The attention weight of key row s. -/
def rowAttn (s : Fin 1024) : EReal :=
  Ideal.div (rowWeight qrow wq kp mrow s) (∑ s' : Fin 1024, rowWeight qrow wq kp mrow s')

/-- The row's context entry for a column of v. -/
def rowCtx (vcol : Fin 1024 → EReal) : EReal := ∑ s : Fin 1024, rowAttn qrow wq kp mrow s * vcol s

end row

/-! ## The whole arrays -/

section arrays
variable (q : (⟨3, ![32, 1024, 512]⟩ : Shape).Idx → EReal) (k v : (⟨3, ![32, 1024, 256]⟩ : Shape).Idx → EReal)
  (mask : (⟨3, ![32, 1024, 1024]⟩ : Shape).Idx → BitVec 32)
  (wq : (⟨2, ![512, 128]⟩ : Shape).Idx → EReal) (wk : (⟨2, ![256, 128]⟩ : Shape).Idx → EReal)

/-- Row s of batch b of k projected onto feature f. -/
def keyProj (b : Fin 32) (s : Fin 1024) (f : Fin 128) : EReal := ∑ d : Fin 256, k (ix3 b s d) * wk (ix2 d f)

/-- The attention weights, entry by entry. -/
def attn : (⟨3, ![32, 1024, 1024]⟩ : Shape).Idx → EReal :=
  fun i => rowAttn (fun d => q (ix3 (i 0) (i 1) d)) (fun d f => wq (ix2 d f)) (keyProj k wk (i 0))
    (fun s => mask (ix3 (i 0) (i 1) s)) (i 2)

/-- The context vectors, entry by entry. -/
def ctx : (⟨3, ![32, 1024, 256]⟩ : Shape).Idx → EReal :=
  fun i => rowCtx (fun d => q (ix3 (i 0) (i 1) d)) (fun d f => wq (ix2 d f)) (keyProj k wk (i 0))
    (fun s => mask (ix3 (i 0) (i 1) s)) (fun s => v (ix3 (i 0) s (i 2)))

end arrays

end Cert.Attention

end
-- ==== Proof.LibKeepdimsColumn.lean ====
/-
  A vector of extent `a` seen as a column `[a, 1]`: what `keepdims=True` leaves of a sum over the last axis, and what a
  reshape of a flat array to a column is. Row-major, the element at `(i, u)` of the column is the element at `i` of the
  vector, since `i · 1 + u = i` for the one value `u = 0`. And the sums over the index sets of a flat array and of a
  column, each as the sum over the one coordinate that varies.
-/
import Idealize.ShloMosaic.Lib.ValueLayout

noncomputable section

open scoped BigOperators

namespace Cert.LibKeepdims

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A sum over the indices of a column `[n, 1]` is the sum over its rows, each read at the one column `0`. -/
theorem sum_idx_column {M : Type*} [AddCommMonoid M] {n : Nat} (f : (⟨2, ![n, 1]⟩ : Shape).Idx → M) :
    ∑ i, f i = ∑ a : Fin n, f (ix2 a (0 : Fin 1)) := by
  rw [sum_idx2]
  exact Finset.sum_congr rfl fun a _ => Fin.sum_univ_one _

end Cert.LibKeepdims

end
-- ==== Proof.LibRowReduceColumn.lean ====
/-
  A reduction along the rows of an [a, b] array, kept as a column [a, 1] (what `keepdims=True` leaves), read at an
  index at the ideal instance: the row's sum is the sum over the row's `b` entries, and the row's maximum taken from
  −∞ (and once more against −∞, as a softmax spells it) is the fold of `max` over them. Any sizes.
-/
import Idealize.ShloMosaic.PureOps.Ideal.Laws
import Idealize.ShloMosaic.Lib.ValueLayout
import proofs.«176372_j15135464751719_2_alg».proof.Proof.LibKeepdimsColumn

noncomputable section

open scoped BigOperators

namespace Cert.Lib.RowReduceColumn

open Idealize.ShloMosaic Idealize.ShloMosaic.ValueIdx

/-- The reduced index `p` of an [a, b] array reduced along its rows, with column `d` put back, is (p, d). -/
theorem lift_row {a b : ℕ} (h : (⟨2, ![a, b]⟩ : Shape).Reduces [1] (⟨1, ![a]⟩ : Shape)) (p : Fin a)
    (d : Fin ((⟨2, ![a, b]⟩ : Shape).size 1)) : h.lift (ix1 p) d = ix2 p (⟨d.val, d.isLt⟩ : Fin b) := by
  funext c; apply Fin.ext
  fin_cases c <;> rfl

/-- A row sum kept as a column, read at (p, u): the sum of row `p`'s entries. -/
theorem rowSum_column_apply {a b : ℕ} (v : FVec Ideal ⟨2, ![a, b]⟩ .f32)
    (h : (⟨2, ![a, b]⟩ : Shape).Reduces [1] (⟨1, ![a]⟩ : Shape)) (hφ : FKind.Formats .f32)
    (hacc : (0x00000000#32 : BitVec 32) = FKind.add.neutral .f32 hφ)
    (hc : (⟨1, ![a]⟩ : Shape).ShapeCasts ⟨2, ![a, 1]⟩) (p : Fin a) (u : Fin 1) :
    shapeCast ⟨2, ![a, 1]⟩ (multiReduction .add [1] ⟨1, ![a]⟩ v 0x00000000#32 h hφ hacc) hc (ix2 p u)
      = ∑ d : Fin b, v (ix2 p d) :=
  (Cert.LibKeepdims.shapeCast_a_a1_apply _ hc p u).trans
    ((Ideal.multiReduction_add_single v _ h hφ hacc (ix1 p)).trans
      (Finset.sum_congr rfl fun d _ => congrArg v (lift_row h p d)))

/-- A row maximum from −∞, taken once more against −∞ and kept as a column, read at (p, u): the fold of `max` over
    row `p`'s entries. -/
theorem rowMax_column_apply {a b : ℕ} (v : FVec Ideal ⟨2, ![a, b]⟩ .f32)
    (h : (⟨2, ![a, b]⟩ : Shape).Reduces [1] (⟨1, ![a]⟩ : Shape)) (hφ : FKind.Formats .f32)
    (hacc : (0xFF800000#32 : BitVec 32) = FKind.maximumf.neutral .f32 hφ)
    (hc : (⟨1, ![a]⟩ : Shape).ShapeCasts ⟨2, ![a, 1]⟩) (p : Fin a) (u : Fin 1) :
    shapeCast ⟨2, ![a, 1]⟩ (maximumf (broadcast ⟨1, ![a]⟩ (Scalar.ofBits (F := Ideal) .f32 0xFF800000#32))
        (multiReduction .maximumf [1] ⟨1, ![a]⟩ v 0xFF800000#32 h hφ hacc)) hc (ix2 p u)
      = max (Ideal.ofBits .f32 0xFF800000#32)
          ((Finset.univ : Finset (Fin b)).fold max (Ideal.ofBits .f32 0xFF800000#32) (fun k => v (ix2 p k))) :=
  (Cert.LibKeepdims.shapeCast_a_a1_apply _ hc p u).trans
    (congrArg (max (Ideal.ofBits .f32 0xFF800000#32))
      ((Ideal.multiReduction_maximumf_single v _ h hφ hacc (ix1 p)).trans
        (congrArg (fun f => (Finset.univ : Finset (Fin b)).fold max (Ideal.ofBits .f32 0xFF800000#32) f)
          (funext fun k => congrArg v (lift_row h p k)))))

end Cert.Lib.RowReduceColumn

end
-- ==== Proof.LibColumnBroadcast.lean ====
/-
  A column broadcast along rows, read at an index: the companion of the library's one-row form
  (`broadcastTo_1b_ab_apply`, one row repeated down the rows) for one COLUMN repeated across the columns.
-/
import Idealize.ShloMosaic.Lib.Pipeline.Value
import Idealize.ShloMosaic.Lib.ValueIdx

namespace Idealize.ShloMosaic.ValueIdx

open Idealize.ShloMosaic

variable {α : Type}

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibMatmulRowsByRows.lean ====
/-
  A matrix product whose two operands are both contracted over their LAST axis, read at an entry.

  A kernel that keeps a weight matrix in its natural [outputs, inputs] layout multiplies an [n, K] block by a
  [d, K] block "row against row": out[r, c] = Σ_k lhs[r, k] · rhs[c, k].  Into the zero accumulator, at the exact
  instance, that sum is all there is.
-/
import Idealize.ShloMosaic.PureOps.Ideal.Laws
import Idealize.ShloMosaic.Lib.ValueIdx

noncomputable section

namespace Cert.Lib.MatmulRowsByRows

open Idealize.ShloMosaic Idealize.ShloMosaic.ValueIdx

/-- A matrix product of an [n, K] operand with a [d, K] operand, both contracted over their last axis, into the
    zero accumulator, read at entry (r, c): the sum over the contracted axis of row r of the left operand times
    row c of the right.  The four hypotheses name the coordinates of the operands' indices at an output index and
    a contraction index (for a printed dimension record: two by unfolding the index maps on the free axes, two
    by the library's lhsIdx_val_of_single / rhsIdx_val_of_single on the contracted ones). -/
theorem matmul_zero_at {n K d : Nat} {φ₁ φ₂ : FTy}
    (D : DotDims ⟨2, ![n, K]⟩ ⟨2, ![d, K]⟩ ⟨2, ![n, d]⟩)
    (hr : D.contr.rank = 1) (hs : D.contr.size ⟨0, by omega⟩ = K)
    (hl0 : ∀ j q, (D.lhsIdx j q 0).val = (j 0).val)
    (hl1 : ∀ j q, (D.lhsIdx j q 1).val = (q ⟨0, by omega⟩).val)
    (hr0 : ∀ j q, (D.rhsIdx j q 0).val = (j 1).val)
    (hr1 : ∀ j q, (D.rhsIdx j q 1).val = (q ⟨0, by omega⟩).val)
    (prec : Option ContractPrecision)
    (lhs : FVec Ideal ⟨2, ![n, K]⟩ φ₁) (rhs : FVec Ideal ⟨2, ![d, K]⟩ φ₂) (r : Fin n) (c : Fin d) :
    FloatOps.matmul D prec lhs rhs (constant (F := Ideal) ⟨2, ![n, d]⟩ .f32 0x00000000#32) (ix2 r c)
      = ∑ k : Fin K, lhs (ix2 r k) * rhs (ix2 c k) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 r c) ((contrEquiv1 D K hr hs).symm k) = ix2 r k := funext fun a => Fin.ext (by
    match a with
    | ⟨0, _⟩ => exact hl0 _ _
    | ⟨1, _⟩ => exact (hl1 _ _).trans hk)
  have er : D.rhsIdx (ix2 r c) ((contrEquiv1 D K hr hs).symm k) = ix2 c k := funext fun a => Fin.ext (by
    match a with
    | ⟨0, _⟩ => exact hr0 _ _
    | ⟨1, _⟩ => exact (hr1 _ _).trans hk)
  rw [el, er]

end Cert.Lib.MatmulRowsByRows

end
-- ==== Proof.LibSplitContraction.lean ====
/-
  Two general facts about contractions, for any sizes.

  * `sum_joined`: a sum over `Fin (p + q)` whose first `p` terms are `f` and whose last `q` terms are `g` is
    the sum of `f` plus the sum of `g` (any commutative monoid; on the extended reals no finiteness is
    needed).  It joins a product taken over a concatenated axis with the two products taken piece by piece.
  * `matmul_zero_at`: a matrix product (rows × contracted axis, contracted axis × columns) into the zero
    accumulator, read at entry (r, c) at the ideal instance, is the sum over the contracted axis of
    `lhs[r,k] · rhs[k,c]`.
-/
import Idealize.ShloMosaic.PureOps.Ideal.Laws
import Idealize.ShloMosaic.Lib.ValueIdx

noncomputable section

namespace Cert.Lib.SplitContraction

open Idealize.ShloMosaic Idealize.ShloMosaic.ValueIdx

/-- A sum over the joined axis, whose first `p` terms are `f` and whose last `q` terms are `g`, is the
    sum of `f` plus the sum of `g`. -/
theorem sum_joined {M : Type} [AddCommMonoid M] (p q : Nat) (h : Fin (p + q) → M) (f : Fin p → M) (g : Fin q → M)
    (hf : ∀ k : Fin p, h (Fin.castAdd q k) = f k) (hg : ∀ k : Fin q, h (Fin.natAdd p k) = g k) :
    ∑ k : Fin (p + q), h k = ∑ k : Fin p, f k + ∑ k : Fin q, g k := by
  rw [Fin.sum_univ_add]
  exact congrArg₂ (· + ·) (Finset.sum_congr rfl fun k _ => hf k) (Finset.sum_congr rfl fun k _ => hg k)

/-- A matrix product (rows × contracted axis, contracted axis × columns) into the zero accumulator, read
    at entry (r, c): the sum over the contracted axis of the row's entries times the column's.  The four
    hypotheses name the coordinates of the operands' indices at an output index and a contraction index
    (for a printed dimension record: two by unfolding the index maps, two by the library's
    `lhsIdx_val_of_single` / `rhsIdx_val_of_single`). -/
theorem matmul_zero_at {n K d : Nat} {φ₁ φ₂ : FTy}
    (D : DotDims ⟨2, ![n, K]⟩ ⟨2, ![K, d]⟩ ⟨2, ![n, d]⟩)
    (hr : D.contr.rank = 1) (hs : D.contr.size ⟨0, by omega⟩ = K)
    (hl0 : ∀ j q, (D.lhsIdx j q 0).val = (j 0).val)
    (hl1 : ∀ j q, (D.lhsIdx j q 1).val = (q ⟨0, by omega⟩).val)
    (hr0 : ∀ j q, (D.rhsIdx j q 0).val = (q ⟨0, by omega⟩).val)
    (hr1 : ∀ j q, (D.rhsIdx j q 1).val = (j 1).val)
    (prec : Option ContractPrecision)
    (lhs : FVec Ideal ⟨2, ![n, K]⟩ φ₁) (rhs : FVec Ideal ⟨2, ![K, d]⟩ φ₂) (r : Fin n) (c : Fin d) :
    FloatOps.matmul D prec lhs rhs (constant (F := Ideal) ⟨2, ![n, d]⟩ .f32 0x00000000#32) (ix2 r c)
      = ∑ k : Fin K, lhs (ix2 r k) * rhs (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 r c) ((contrEquiv1 D K hr hs).symm k) = ix2 r k := funext fun a => Fin.ext (by
    match a with
    | ⟨0, _⟩ => exact hl0 _ _
    | ⟨1, _⟩ => exact (hl1 _ _).trans hk)
  have er : D.rhsIdx (ix2 r c) ((contrEquiv1 D K hr hs).symm k) = ix2 k c := funext fun a => Fin.ext (by
    match a with
    | ⟨0, _⟩ => exact (hr0 _ _).trans hk
    | ⟨1, _⟩ => exact hr1 _ _)
  rw [el, er]

end Cert.Lib.SplitContraction

end
-- ==== Proof.Body.lean ====
/-
  What the kernel body computes from the blocks it loads, read entry by entry on the extended reals.
  A change of float format is the identity there, a matrix product into the zero accumulator is the plain sum of
  products over the contracted axis, a row maximum is the fold of max over the row, a row sum the sum over it.
-/
import proofs.«176372_j15135464751719_2_alg».proof.Proof.Gen.KernelIdeal.Skeleton
import proofs.«176372_j15135464751719_2_alg».proof.Proof.Spec
import proofs.«176372_j15135464751719_2_alg».proof.Proof.LibRowReduceColumn
import proofs.«176372_j15135464751719_2_alg».proof.Proof.LibColumnBroadcast
import proofs.«176372_j15135464751719_2_alg».proof.Proof.LibMatmulRowsByRows
import proofs.«176372_j15135464751719_2_alg».proof.Proof.LibSplitContraction
import Idealize.ShloMosaic.Lib.ValueLayout
import Idealize.ShloMosaic.Lib.ValueIdx
import Idealize.ShloMosaic.PureOps.Ideal.Laws

set_option maxRecDepth 65536
set_option synthInstance.maxSize 4096

noncomputable section

open scoped BigOperators

namespace Cert.KernelIdeal.Body

open Cert.KernelIdeal Cert.KernelIdeal.Gen Idealize.ShloMosaic Idealize.ShloMosaic.ValueIdx

/-! ## The coordinates of the four products' operand indices -/

theorem dk_l0 (j : S1024x128.Idx) (q : (dot_S1024x256_S256x128_S1024x128_1_0_0_1_n_n).contr.Idx) : ((dot_S1024x256_S256x128_S1024x128_1_0_0_1_n_n).lhsIdx j q 0).val = (j 0).val := by
  unfold DotDims.lhsIdx
  rw [dif_neg (show ¬(0 : Fin S1024x256.rank) ∈ (dot_S1024x256_S256x128_S1024x128_1_0_0_1_n_n).lhsBatch by decide),
    dif_pos (show (0 : Fin S1024x256.rank) ∈ (dot_S1024x256_S256x128_S1024x128_1_0_0_1_n_n).lhsNonContracting by decide)]
  rfl
theorem dk_l1 (j : S1024x128.Idx) (q : (dot_S1024x256_S256x128_S1024x128_1_0_0_1_n_n).contr.Idx) : ((dot_S1024x256_S256x128_S1024x128_1_0_0_1_n_n).lhsIdx j q 1).val = (q ⟨0, by decide⟩).val :=
  (dot_S1024x256_S256x128_S1024x128_1_0_0_1_n_n).lhsIdx_val_of_single rfl j q
theorem dk_r0 (j : S1024x128.Idx) (q : (dot_S1024x256_S256x128_S1024x128_1_0_0_1_n_n).contr.Idx) : ((dot_S1024x256_S256x128_S1024x128_1_0_0_1_n_n).rhsIdx j q 0).val = (q ⟨0, by decide⟩).val :=
  (dot_S1024x256_S256x128_S1024x128_1_0_0_1_n_n).rhsIdx_val_of_single rfl j q
theorem dk_r1 (j : S1024x128.Idx) (q : (dot_S1024x256_S256x128_S1024x128_1_0_0_1_n_n).contr.Idx) : ((dot_S1024x256_S256x128_S1024x128_1_0_0_1_n_n).rhsIdx j q 1).val = (j 1).val := by
  unfold DotDims.rhsIdx
  rw [dif_neg (show ¬(1 : Fin S256x128.rank) ∈ (dot_S1024x256_S256x128_S1024x128_1_0_0_1_n_n).rhsBatch by decide),
    dif_pos (show (1 : Fin S256x128.rank) ∈ (dot_S1024x256_S256x128_S1024x128_1_0_0_1_n_n).rhsNonContracting by decide)]
  rfl

theorem dq_l0 (j : S256x128.Idx) (q : (dot_S256x512_S512x128_S256x128_1_0_0_1_n_n).contr.Idx) : ((dot_S256x512_S512x128_S256x128_1_0_0_1_n_n).lhsIdx j q 0).val = (j 0).val := by
  unfold DotDims.lhsIdx
  rw [dif_neg (show ¬(0 : Fin S256x512.rank) ∈ (dot_S256x512_S512x128_S256x128_1_0_0_1_n_n).lhsBatch by decide),
    dif_pos (show (0 : Fin S256x512.rank) ∈ (dot_S256x512_S512x128_S256x128_1_0_0_1_n_n).lhsNonContracting by decide)]
  rfl
theorem dq_l1 (j : S256x128.Idx) (q : (dot_S256x512_S512x128_S256x128_1_0_0_1_n_n).contr.Idx) : ((dot_S256x512_S512x128_S256x128_1_0_0_1_n_n).lhsIdx j q 1).val = (q ⟨0, by decide⟩).val :=
  (dot_S256x512_S512x128_S256x128_1_0_0_1_n_n).lhsIdx_val_of_single rfl j q
theorem dq_r0 (j : S256x128.Idx) (q : (dot_S256x512_S512x128_S256x128_1_0_0_1_n_n).contr.Idx) : ((dot_S256x512_S512x128_S256x128_1_0_0_1_n_n).rhsIdx j q 0).val = (q ⟨0, by decide⟩).val :=
  (dot_S256x512_S512x128_S256x128_1_0_0_1_n_n).rhsIdx_val_of_single rfl j q
theorem dq_r1 (j : S256x128.Idx) (q : (dot_S256x512_S512x128_S256x128_1_0_0_1_n_n).contr.Idx) : ((dot_S256x512_S512x128_S256x128_1_0_0_1_n_n).rhsIdx j q 1).val = (j 1).val := by
  unfold DotDims.rhsIdx
  rw [dif_neg (show ¬(1 : Fin S512x128.rank) ∈ (dot_S256x512_S512x128_S256x128_1_0_0_1_n_n).rhsBatch by decide),
    dif_pos (show (1 : Fin S512x128.rank) ∈ (dot_S256x512_S512x128_S256x128_1_0_0_1_n_n).rhsNonContracting by decide)]
  rfl

theorem ds_l0 (j : S256x1024.Idx) (q : (dot_S256x128_S1024x128_S256x1024_1_1_0_0_n_n).contr.Idx) : ((dot_S256x128_S1024x128_S256x1024_1_1_0_0_n_n).lhsIdx j q 0).val = (j 0).val := by
  unfold DotDims.lhsIdx
  rw [dif_neg (show ¬(0 : Fin S256x128.rank) ∈ (dot_S256x128_S1024x128_S256x1024_1_1_0_0_n_n).lhsBatch by decide),
    dif_pos (show (0 : Fin S256x128.rank) ∈ (dot_S256x128_S1024x128_S256x1024_1_1_0_0_n_n).lhsNonContracting by decide)]
  rfl
theorem ds_l1 (j : S256x1024.Idx) (q : (dot_S256x128_S1024x128_S256x1024_1_1_0_0_n_n).contr.Idx) : ((dot_S256x128_S1024x128_S256x1024_1_1_0_0_n_n).lhsIdx j q 1).val = (q ⟨0, by decide⟩).val :=
  (dot_S256x128_S1024x128_S256x1024_1_1_0_0_n_n).lhsIdx_val_of_single rfl j q
theorem ds_r0 (j : S256x1024.Idx) (q : (dot_S256x128_S1024x128_S256x1024_1_1_0_0_n_n).contr.Idx) : ((dot_S256x128_S1024x128_S256x1024_1_1_0_0_n_n).rhsIdx j q 0).val = (j 1).val := by
  unfold DotDims.rhsIdx
  rw [dif_neg (show ¬(0 : Fin S1024x128.rank) ∈ (dot_S256x128_S1024x128_S256x1024_1_1_0_0_n_n).rhsBatch by decide),
    dif_pos (show (0 : Fin S1024x128.rank) ∈ (dot_S256x128_S1024x128_S256x1024_1_1_0_0_n_n).rhsNonContracting by decide)]
  rfl
theorem ds_r1 (j : S256x1024.Idx) (q : (dot_S256x128_S1024x128_S256x1024_1_1_0_0_n_n).contr.Idx) : ((dot_S256x128_S1024x128_S256x1024_1_1_0_0_n_n).rhsIdx j q 1).val = (q ⟨0, by decide⟩).val :=
  (dot_S256x128_S1024x128_S256x1024_1_1_0_0_n_n).rhsIdx_val_of_single rfl j q

theorem dc_l0 (j : S256x256.Idx) (q : (dot_S256x1024_S1024x256_S256x256_1_0_0_1_n_n).contr.Idx) : ((dot_S256x1024_S1024x256_S256x256_1_0_0_1_n_n).lhsIdx j q 0).val = (j 0).val := by
  unfold DotDims.lhsIdx
  rw [dif_neg (show ¬(0 : Fin S256x1024.rank) ∈ (dot_S256x1024_S1024x256_S256x256_1_0_0_1_n_n).lhsBatch by decide),
    dif_pos (show (0 : Fin S256x1024.rank) ∈ (dot_S256x1024_S1024x256_S256x256_1_0_0_1_n_n).lhsNonContracting by decide)]
  rfl
theorem dc_l1 (j : S256x256.Idx) (q : (dot_S256x1024_S1024x256_S256x256_1_0_0_1_n_n).contr.Idx) : ((dot_S256x1024_S1024x256_S256x256_1_0_0_1_n_n).lhsIdx j q 1).val = (q ⟨0, by decide⟩).val :=
  (dot_S256x1024_S1024x256_S256x256_1_0_0_1_n_n).lhsIdx_val_of_single rfl j q
theorem dc_r0 (j : S256x256.Idx) (q : (dot_S256x1024_S1024x256_S256x256_1_0_0_1_n_n).contr.Idx) : ((dot_S256x1024_S1024x256_S256x256_1_0_0_1_n_n).rhsIdx j q 0).val = (q ⟨0, by decide⟩).val :=
  (dot_S256x1024_S1024x256_S256x256_1_0_0_1_n_n).rhsIdx_val_of_single rfl j q
theorem dc_r1 (j : S256x256.Idx) (q : (dot_S256x1024_S1024x256_S256x256_1_0_0_1_n_n).contr.Idx) : ((dot_S256x1024_S1024x256_S256x256_1_0_0_1_n_n).rhsIdx j q 1).val = (j 1).val := by
  unfold DotDims.rhsIdx
  rw [dif_neg (show ¬(1 : Fin S1024x256.rank) ∈ (dot_S256x1024_S1024x256_S256x256_1_0_0_1_n_n).rhsBatch by decide),
    dif_pos (show (1 : Fin S1024x256.rank) ∈ (dot_S256x1024_S1024x256_S256x256_1_0_0_1_n_n).rhsNonContracting by decide)]
  rfl

/-! ## The key projection -/

/-- The key projection of a batch's block of k: entry (s, f) is Σ_d k[s,d] · Wk[d,f]. -/
theorem keyBlock_apply (x1 : Vec Ideal S1x1024x256 .f32) (x5 : Vec Ideal S256x128 .f32) (s : Fin 1024) (f : Fin 128) :
    k0_pay2 (F := Ideal) x1 x5 (ix2 s f) = ∑ d : Fin 256, x1 (ix3 (0 : Fin 1) s d) * x5 (ix2 d f) := by
  unfold k0_pay2
  refine (congrFun (shapeCast_self _ _) _).trans ?_
  refine (Cert.Lib.SplitContraction.matmul_zero_at dot_S1024x256_S256x128_S1024x128_1_0_0_1_n_n rfl rfl
    dk_l0 dk_l1 dk_r0 dk_r1 none _ _ s f).trans ?_
  refine Finset.sum_congr rfl fun d _ => ?_
  exact congrArg (· * x5 (ix2 d f)) (shapeCast_1ab_ab_apply x1 _ s d)

/-! ## The context product -/

/-- The context block: entry (t, d) is Σ_s a[t,s] · v[s,d]. -/
theorem ctxBlock_apply (a : FVec Ideal S256x1024 .f32) (x2 : Vec Ideal S1x1024x256 .f32) (u : Fin 1) (t : Fin 256) (d : Fin 256) :
    k0_pay1 (F := Ideal) a x2 (ix3 u t d) = ∑ s : Fin 1024, a (ix2 t s) * x2 (ix3 (0 : Fin 1) s d) := by
  unfold k0_pay1
  refine (shapeCast_ab_1ab_apply _ _ u t d).trans ?_
  refine (Cert.Lib.SplitContraction.matmul_zero_at dot_S256x1024_S1024x256_S256x256_1_0_0_1_n_n rfl rfl
    dc_l0 dc_l1 dc_r0 dc_r1 none _ _ t d).trans ?_
  refine Finset.sum_congr rfl fun s _ => ?_
  exact congrArg (a (ix2 t s) * ·) (shapeCast_1ab_ab_apply x2 _ s d)

/-! ## The attention tile: masked scaled scores, then a softmax along each row -/

/-- The masked scaled scores of a tile of query rows against the projected keys. -/
def tileLogit (x0 : Vec Ideal S1x256x512 .f32) (x4 : Vec Ideal S512x128 .f32) (kp : Vec Ideal S1024x128 .bf16)
    (x3 : Vec Ideal S1x256x1024 .i32) : FVec Ideal S256x1024 .f32 :=
  select (cmpi .eq (shapeCast S256x1024 x3 shapeCasts_S1x256x1024_S256x1024) (broadcast S256x1024 0#32))
    (broadcast S256x1024 (Scalar.ofBits (F := Ideal) .f32 0xCE6E6B28#32))
    (mulf (matmul (φ₂ := .bf16) dot_S256x128_S1024x128_S256x1024_1_1_0_0_n_n none
        (truncf .bf16 (matmul dot_S256x512_S512x128_S256x128_1_0_0_1_n_n none
          (truncf .bf16 (shapeCast S256x512 x0 shapeCasts_S1x256x512_S256x512) bitsLt_bf16_f32)
          (truncf .bf16 x4 bitsLt_bf16_f32) (constant (F := Ideal) S256x128 .f32 0x00000000#32)) bitsLt_bf16_f32)
        kp (constant (F := Ideal) S256x1024 .f32 0x00000000#32))
      (broadcast S256x1024 (Scalar.ofBits (F := Ideal) .f32 0x3D800000#32)))

/-- The softmax along each row of a tile of logits, as the body spells it. -/
def tileSoftmax (L : FVec Ideal S256x1024 .f32) : FVec Ideal S256x1024 .f32 :=
  let e : FVec Ideal S256x1024 .f32 := exp (subf L (broadcastTo S256x1024
    (shapeCast S256x1 (multiReduction (F := Ideal) .maximumf [1] S256 L 0xFF800000#32 reduces_S256x1024_S256 (.inl rfl) rfl)
      shapeCasts_S256_S256x1) broadcasts_S256x1_S256x1024))
  divf e (broadcastTo S256x1024
    (shapeCast S256x1 (multiReduction (F := Ideal) .add [1] S256 e 0x00000000#32 reduces_S256x1024_S256 (.inl rfl) rfl)
      shapeCasts_S256_S256x1) broadcasts_S256x1_S256x1024)

/-- The body's attention payload is the softmax of the masked scaled scores. -/
theorem attnTile_eq (x0 : Vec Ideal S1x256x512 .f32) (x4 : Vec Ideal S512x128 .f32) (kp : Vec Ideal S1024x128 .bf16)
    (x3 : Vec Ideal S1x256x1024 .i32) :
    k0_pay3 (F := Ideal) x0 x4 kp x3 = tileSoftmax (tileLogit x0 x4 kp x3) := rfl

/-- A logit of the tile: −1e9 where the mask is zero, elsewhere the scaled sum over features of the projected query
    row times the projected key row. -/
theorem tileLogit_apply (x0 : Vec Ideal S1x256x512 .f32) (x4 : Vec Ideal S512x128 .f32) (kp : Vec Ideal S1024x128 .bf16)
    (x3 : Vec Ideal S1x256x1024 .i32) (t : Fin 256) (s : Fin 1024) :
    tileLogit x0 x4 kp x3 (ix2 t s)
      = Scalar.select (IntOp.cmpi .eq (x3 (ix3 (0 : Fin 1) t s)) 0#32) (Ideal.ofBits .f32 0xCE6E6B28#32)
          ((∑ f : Fin 128, (∑ d : Fin 512, x0 (ix3 (0 : Fin 1) t d) * x4 (ix2 d f)) * kp (ix2 s f))
            * Ideal.ofBits .f32 0x3D800000#32) := by
  unfold tileLogit
  refine (select_apply _ _ _ _).trans ?_
  refine congrArg₂ (fun c y => Scalar.select c (Ideal.ofBits .f32 0xCE6E6B28#32) y) ?_ ?_
  · exact congrArg (fun w => IntOp.cmpi .eq w 0#32) (shapeCast_1ab_ab_apply x3 _ t s)
  · refine congrArg (· * Ideal.ofBits .f32 0x3D800000#32) ?_
    refine (Cert.Lib.MatmulRowsByRows.matmul_zero_at (φ₁ := .bf16) (φ₂ := .bf16) dot_S256x128_S1024x128_S256x1024_1_1_0_0_n_n rfl rfl
      ds_l0 ds_l1 ds_r0 ds_r1 none _ _ t s).trans ?_
    refine Finset.sum_congr rfl fun f _ => ?_
    refine congrArg (· * kp (ix2 s f)) ?_
    refine (Cert.Lib.SplitContraction.matmul_zero_at dot_S256x512_S512x128_S256x128_1_0_0_1_n_n rfl rfl
      dq_l0 dq_l1 dq_r0 dq_r1 none _ _ t f).trans ?_
    refine Finset.sum_congr rfl fun d _ => ?_
    exact congrArg (· * x4 (ix2 d f)) (shapeCast_1ab_ab_apply x0 _ t d)

/-- The largest entry of row t of a tile, from −∞, as the column the body broadcasts. -/
theorem rowMax_apply (L : FVec Ideal S256x1024 .f32) (t : Fin 256) (s : Fin 1024) :
    broadcastTo S256x1024
      (shapeCast S256x1 (multiReduction (F := Ideal) .maximumf [1] S256 L 0xFF800000#32 reduces_S256x1024_S256 (.inl rfl) rfl)
        shapeCasts_S256_S256x1) broadcasts_S256x1_S256x1024 (ix2 t s)
      = (Finset.univ : Finset (Fin 1024)).fold max (Ideal.ofBits .f32 0xFF800000#32) (fun s' => L (ix2 t s')) := by
  refine (broadcastTo_a1_ab_apply _ _ t s).trans ?_
  refine (Cert.LibKeepdims.shapeCast_a_a1_apply _ _ t 0).trans ?_
  refine (Ideal.multiReduction_maximumf_single L _ reduces_S256x1024_S256 _ _ (ix1 t)).trans ?_
  exact congrArg (fun g => (Finset.univ : Finset (Fin 1024)).fold max (Ideal.ofBits .f32 0xFF800000#32) g)
    (funext fun s' => congrArg L (Cert.Lib.RowReduceColumn.lift_row reduces_S256x1024_S256 t s'))

/-- The sum of row t of a tile, as the column the body broadcasts. -/
theorem rowSum_apply (E : FVec Ideal S256x1024 .f32) (t : Fin 256) (s : Fin 1024) :
    broadcastTo S256x1024
      (shapeCast S256x1 (multiReduction (F := Ideal) .add [1] S256 E 0x00000000#32 reduces_S256x1024_S256 (.inl rfl) rfl)
        shapeCasts_S256_S256x1) broadcasts_S256x1_S256x1024 (ix2 t s)
      = ∑ s' : Fin 1024, E (ix2 t s') := by
  refine (broadcastTo_a1_ab_apply _ _ t s).trans ?_
  exact Cert.Lib.RowReduceColumn.rowSum_column_apply E reduces_S256x1024_S256 _ _ _ t 0

/-- The softmax of a tile read at (t, s): exp (L[t,s] − max_s' L[t,s']) over the sum of those along the row. -/
theorem tileSoftmax_apply (L : FVec Ideal S256x1024 .f32) (t : Fin 256) (s : Fin 1024) :
    tileSoftmax L (ix2 t s)
      = Ideal.div (Ideal.exp (L (ix2 t s) - (Finset.univ : Finset (Fin 1024)).fold max (Ideal.ofBits .f32 0xFF800000#32) (fun s' => L (ix2 t s'))))
          (∑ s'' : Fin 1024, Ideal.exp (L (ix2 t s'') - (Finset.univ : Finset (Fin 1024)).fold max (Ideal.ofBits .f32 0xFF800000#32) (fun s' => L (ix2 t s')))) := by
  unfold tileSoftmax
  refine (divf_apply _ _ _).trans ?_
  refine congrArg₂ Ideal.div ?_ ?_
  · exact congrArg (fun y => Ideal.exp (L (ix2 t s) - y)) (rowMax_apply L t s)
  · refine (rowSum_apply _ t s).trans ?_
    exact Finset.sum_congr rfl fun s'' _ => congrArg (fun y => Ideal.exp (L (ix2 t s'') - y)) (rowMax_apply L t s'')

/-! ## The two output blocks as the row-level attention of the tile's rows -/

/-- The attention payload at (t, s): the attention of the tile's query row t over the projected keys. -/
theorem attnTile_apply (x0 : Vec Ideal S1x256x512 .f32) (x4 : Vec Ideal S512x128 .f32) (kp : Vec Ideal S1024x128 .bf16)
    (x3 : Vec Ideal S1x256x1024 .i32) (t : Fin 256) (s : Fin 1024) :
    k0_pay3 (F := Ideal) x0 x4 kp x3 (ix2 t s)
      = Cert.Attention.rowAttn (fun d => x0 (ix3 (0 : Fin 1) t d)) (fun d f => x4 (ix2 d f)) (fun s' f => kp (ix2 s' f))
          (fun s' => x3 (ix3 (0 : Fin 1) t s')) s := by
  rw [attnTile_eq]
  refine (tileSoftmax_apply _ t s).trans ?_
  simp only [tileLogit_apply]
  rfl

/-- The attention block the body stores, at (u, t, s): the same. -/
theorem attnBlock_apply (x0 : Vec Ideal S1x256x512 .f32) (x4 : Vec Ideal S512x128 .f32) (kp : Vec Ideal S1024x128 .bf16)
    (x3 : Vec Ideal S1x256x1024 .i32) (u : Fin 1) (t : Fin 256) (s : Fin 1024) :
    k0_pay4 (F := Ideal) x0 x4 kp x3 (ix3 u t s)
      = Cert.Attention.rowAttn (fun d => x0 (ix3 (0 : Fin 1) t d)) (fun d f => x4 (ix2 d f)) (fun s' f => kp (ix2 s' f))
          (fun s' => x3 (ix3 (0 : Fin 1) t s')) s := by
  unfold k0_pay4
  exact (shapeCast_ab_1ab_apply _ _ u t s).trans (attnTile_apply x0 x4 kp x3 t s)

/-- The context block the body stores, at (u, t, d): the row's attention weights against column d of the value block. -/
theorem ctxTile_apply (x0 : Vec Ideal S1x256x512 .f32) (x4 : Vec Ideal S512x128 .f32) (kp : Vec Ideal S1024x128 .bf16)
    (x3 : Vec Ideal S1x256x1024 .i32) (x2 : Vec Ideal S1x1024x256 .f32) (u : Fin 1) (t : Fin 256) (d : Fin 256) :
    k0_pay1 (F := Ideal) (k0_pay3 (F := Ideal) x0 x4 kp x3) x2 (ix3 u t d)
      = Cert.Attention.rowCtx (fun d' => x0 (ix3 (0 : Fin 1) t d')) (fun d' f => x4 (ix2 d' f)) (fun s' f => kp (ix2 s' f))
          (fun s' => x3 (ix3 (0 : Fin 1) t s')) (fun s => x2 (ix3 (0 : Fin 1) s d)) := by
  refine (ctxBlock_apply _ x2 u t d).trans ?_
  unfold Cert.Attention.rowCtx
  exact Finset.sum_congr rfl fun s _ => congrArg (· * x2 (ix3 (0 : Fin 1) s d)) (attnTile_apply x0 x4 kp x3 t s)

end Cert.KernelIdeal.Body

end
-- ==== Proof.Tiles.lean ====
/-
  What each grid point writes back, as blocks of the attention function of the six argument arrays.

  The scratch the body keeps between grid points holds, after every point of batch b, the projected keys of batch b:
  the first q-tile of the batch computes them from the batch's key block, and the other three leave them alone.
  So at every point the attention block the body stores is rows 256·(t mod 4) … of attn[b], and the context block the
  same rows of ctx[b].
-/
import proofs.«176372_j15135464751719_2_alg».proof.Proof.Gen.KernelIdeal.Value
import proofs.«176372_j15135464751719_2_alg».proof.Proof.Pieces
import proofs.«176372_j15135464751719_2_alg».proof.Proof.Blocks
import proofs.«176372_j15135464751719_2_alg».proof.Proof.Body
import proofs.«176372_j15135464751719_2_alg».proof.Proof.Spec

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Tiles

open Cert.KernelIdeal Cert.KernelIdeal.Gen

variable (m : (ℓ : Loc nD τ sig) → Buf (Elt Ideal) ℓ)

/-- The six argument arrays as the region finds them, as arrays of extended reals (of words, the mask). -/
abbrev argQ (c : Dev nD) : S32x1024x512.Idx → EReal := V m c main_arg0
abbrev argK (c : Dev nD) : S32x1024x256.Idx → EReal := V m c main_arg1
abbrev argV (c : Dev nD) : S32x1024x256.Idx → EReal := V m c main_arg2
abbrev argM (c : Dev nD) : S32x1024x1024.Idx → BitVec 32 := V m c main_arg3
abbrev argWq (c : Dev nD) : S512x128.Idx → EReal := V m c main_arg4
abbrev argWk (c : Dev nD) : S256x128.Idx → EReal := V m c main_arg5

/-- The attention weights of the argument arrays. -/
abbrev attnOf (c : Dev nD) : S32x1024x1024.Idx → EReal :=
  Cert.Attention.attn (argQ m c) (argK m c) (argM m c) (argWq m c) (argWk m c)

/-- The context vectors of the argument arrays. -/
abbrev ctxOf (c : Dev nD) : S32x1024x256.Idx → EReal :=
  Cert.Attention.ctx (argQ m c) (argK m c) (argV m c) (argM m c) (argWq m c) (argWk m c)

/-- The projected keys of batch b. -/
abbrev keysOf (c : Dev nD) (b : Fin 32) : Fin 1024 → Fin 128 → EReal :=
  Cert.Attention.keyProj (argK m c) (argWk m c) b

/-! ## The scratch holds the batch's projected keys -/

/-- The key projection of point t's key block is the projected keys of batch t div 4. -/
theorem keyBlock_point (c : Dev nD) (t : Fin cfg0.N) (b : Fin 32) (hb : b.val = t.val / 4) (s : Fin 1024) (f : Fin 128) :
    k0_pay2 (F := Ideal) (iblk m c 1 t) (iblk m c 5 t) (ix2 s f) = keysOf m c b s f := by
  refine (Body.keyBlock_apply (iblk m c 1 t) (iblk m c 5 t) s f).trans ?_
  show _ = ∑ d : Fin 256, argK m c (ix3 b s d) * argWk m c (ix2 d f)
  refine Finset.sum_congr rfl fun d _ => ?_
  have e1 : (iblk m c 1 t : Vec Ideal S1x1024x256 .f32) (ix3 (0 : Fin 1) s d) = argK m c (ix3 b s d) :=
    Blocks.kBlock_apply m c t (ix3 (0 : Fin 1) s d) (ix3 b s d) hb rfl rfl
  have e2 : (iblk m c 5 t : Vec Ideal S256x128 .f32) (ix2 d f) = argWk m c (ix2 d f) :=
    Blocks.wkBlock_apply m c t (ix2 d f)
  rw [e1, e2]

/-- After the first q-tile of a batch the scratch holds the batch's projected keys. -/
theorem scratch_first (c : Dev nD) (t : Fin cfg0.N) (h0 : t.val % 4 = 0) (b : Fin 32) (hb : b.val = t.val / 4)
    (s : Fin 1024) (f : Fin 128) :
    ((outsAt0 m c t.val t.isLt).2.2 : Vec Ideal S1024x128 .bf16) (ix2 s f) = keysOf m c b s f := by
  rw [outsAt0_A m c t h0]
  dsimp only
  rw [Pieces.scratchA]
  exact keyBlock_point m c t b hb s f

/-- After every point the scratch holds the projected keys of the point's batch. -/
theorem scratch_apply (c : Dev nD) : ∀ (n : ℕ) (h : n < cfg0.N) (b : Fin 32), b.val = n / 4 → ∀ (s : Fin 1024) (f : Fin 128),
    ((outsAt0 m c n h).2.2 : Vec Ideal S1024x128 .bf16) (ix2 s f) = keysOf m c b s f := by
  intro n
  induction n with
  | zero => intro h b hb s f; exact scratch_first m c ⟨0, h⟩ rfl b hb s f
  | succ n ih =>
    intro h b hb s f
    by_cases h0 : (n + 1) % 4 = 0
    · exact scratch_first m c ⟨n + 1, h⟩ h0 b hb s f
    · rw [outsAt0_B m c ⟨n + 1, h⟩ h0]
      exact ih (Nat.lt_of_succ_lt h) b (by omega) s f

/-! ## A tile of attention rows -/

/-- Over the projected keys of its batch, the attention block of point t is rows 256·(t mod 4) + r of attn. -/
theorem attn_tile (c : Dev nD) (t : Fin cfg0.N) (b : Fin 32) (hb : b.val = t.val / 4) (kp : Vec Ideal S1024x128 .bf16)
    (hkp : ∀ (s : Fin 1024) (f : Fin 128), kp (ix2 s f) = keysOf m c b s f)
    (u : Fin 1) (r : Fin 256) (s : Fin 1024) (T : Fin 1024) (hT : T.val = 256 * (t.val % 4) + r.val) :
    k0_pay4 (F := Ideal) (iblk m c 0 t) (iblk m c 4 t) kp (iblk m c 3 t) (ix3 u r s) = attnOf m c (ix3 b T s) := by
  refine (Body.attnBlock_apply (iblk m c 0 t) (iblk m c 4 t) kp (iblk m c 3 t) u r s).trans ?_
  have e0 : (fun d : Fin 512 => (iblk m c 0 t : Vec Ideal S1x256x512 .f32) (ix3 (0 : Fin 1) r d))
      = fun d => argQ m c (ix3 b T d) :=
    funext fun d => Blocks.qBlock_apply m c t (ix3 (0 : Fin 1) r d) (ix3 b T d) hb hT rfl
  have e4 : (fun (d : Fin 512) (f : Fin 128) => (iblk m c 4 t : Vec Ideal S512x128 .f32) (ix2 d f))
      = fun d f => argWq m c (ix2 d f) :=
    funext fun d => funext fun f => Blocks.wqBlock_apply m c t (ix2 d f)
  have ek : (fun (s' : Fin 1024) (f : Fin 128) => kp (ix2 s' f)) = keysOf m c b :=
    funext fun s' => funext fun f => hkp s' f
  have e3 : (fun s' : Fin 1024 => (iblk m c 3 t : Vec Ideal S1x256x1024 .i32) (ix3 (0 : Fin 1) r s'))
      = fun s' => argM m c (ix3 b T s') :=
    funext fun s' => Blocks.maskBlock_apply m c t (ix3 (0 : Fin 1) r s') (ix3 b T s') hb hT rfl
  rw [e0, e4, ek, e3]
  rfl

/-- … and its context block the same rows of ctx. -/
theorem ctx_tile (c : Dev nD) (t : Fin cfg0.N) (b : Fin 32) (hb : b.val = t.val / 4) (kp : Vec Ideal S1024x128 .bf16)
    (hkp : ∀ (s : Fin 1024) (f : Fin 128), kp (ix2 s f) = keysOf m c b s f)
    (u : Fin 1) (r : Fin 256) (d : Fin 256) (T : Fin 1024) (hT : T.val = 256 * (t.val % 4) + r.val) :
    k0_pay1 (F := Ideal) (k0_pay3 (F := Ideal) (iblk m c 0 t) (iblk m c 4 t) kp (iblk m c 3 t)) (iblk m c 2 t) (ix3 u r d)
      = ctxOf m c (ix3 b T d) := by
  refine (Body.ctxTile_apply (iblk m c 0 t) (iblk m c 4 t) kp (iblk m c 3 t) (iblk m c 2 t) u r d).trans ?_
  have e0 : (fun d' : Fin 512 => (iblk m c 0 t : Vec Ideal S1x256x512 .f32) (ix3 (0 : Fin 1) r d'))
      = fun d' => argQ m c (ix3 b T d') :=
    funext fun d' => Blocks.qBlock_apply m c t (ix3 (0 : Fin 1) r d') (ix3 b T d') hb hT rfl
  have e4 : (fun (d' : Fin 512) (f : Fin 128) => (iblk m c 4 t : Vec Ideal S512x128 .f32) (ix2 d' f))
      = fun d' f => argWq m c (ix2 d' f) :=
    funext fun d' => funext fun f => Blocks.wqBlock_apply m c t (ix2 d' f)
  have ek : (fun (s' : Fin 1024) (f : Fin 128) => kp (ix2 s' f)) = keysOf m c b :=
    funext fun s' => funext fun f => hkp s' f
  have e3 : (fun s' : Fin 1024 => (iblk m c 3 t : Vec Ideal S1x256x1024 .i32) (ix3 (0 : Fin 1) r s'))
      = fun s' => argM m c (ix3 b T s') :=
    funext fun s' => Blocks.maskBlock_apply m c t (ix3 (0 : Fin 1) r s') (ix3 b T s') hb hT rfl
  have e2 : (fun s' : Fin 1024 => (iblk m c 2 t : Vec Ideal S1x1024x256 .f32) (ix3 (0 : Fin 1) s' d))
      = fun s' => argV m c (ix3 b s' d) :=
    funext fun s' => Blocks.vBlock_apply m c t (ix3 (0 : Fin 1) s' d) (ix3 b s' d) hb rfl rfl
  rw [e0, e4, ek, e3, e2]
  rfl

end Cert.KernelIdeal.Tiles

end
-- ==== Proof.Result.lean ====
/-
  The kernel's two result arrays after its run: the context vectors and the attention weights of the argument
  arrays.  Each grid point writes back one block of each; the blocks of the 128 points tile the arrays (the point of
  batch b and q-tile j covers rows 256·j … 256·j + 255 of batch b), so the arrays end holding the functions whole.
-/
import proofs.«176372_j15135464751719_2_alg».proof.Proof.Tiles

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen

variable (m : (ℓ : Loc nD τ sig) → Buf (Elt Ideal) ℓ) (ρ : Dev nD → PrngReg)

/-- What point t writes back to the attention array is block t of the attention function. -/
theorem flushed7_eq (c : Dev nD) (t : Fin cfg0.N) :
    (dats m 0 c).flushed 7 t = ((cfg0.win 7).blk t).view.read (Elt Ideal) (Tiles.attnOf m c) := by
  have hN : t.val < 128 := lt_of_lt_of_eq t.isLt (show cfg0.N = 128 from N_0)
  have hf := Blocks.idx_facts t
  funext j
  obtain ⟨u, r, s, rfl⟩ : ∃ (u : Fin 1) (r : Fin 256) (s : Fin 1024), j = ix3 u r s := ⟨j 0, j 1, j 2, eq_ix3 j⟩
  rw [View.read_apply]
  have hemb : ((cfg0.win 7).blk t).view.emb (ix3 u r s)
      = ix3 (⟨t.val / 4, by omega⟩ : Fin 32) (⟨256 * (t.val % 4) + r.val, by omega⟩ : Fin 1024) s :=
    funext fun a => Fin.ext (by
      match a with
      | ⟨0, _⟩ => show win0_7.index t (0 : Fin 3) * 1 + 1 * u.val = t.val / 4; rw [hf.2.2.2.2.2.2.2.1]; omega
      | ⟨1, _⟩ => show win0_7.index t (1 : Fin 3) * 256 + 1 * r.val = 256 * (t.val % 4) + r.val; rw [hf.2.2.2.2.2.2.2.2.1]; omega
      | ⟨2, _⟩ => show win0_7.index t (2 : Fin 3) * 1024 + 1 * s.val = s.val; rw [hf.2.2.2.2.2.2.2.2.2]; omega)
  rw [hemb]
  by_cases h0 : t.val % 4 = 0
  · rw [Value.flushed7_A m c t h0, Pieces.attnA]
    exact Tiles.attn_tile m c t ⟨t.val / 4, by omega⟩ rfl _ (fun s' f => Tiles.keyBlock_point m c t ⟨t.val / 4, by omega⟩ rfl s' f)
      u r s ⟨256 * (t.val % 4) + r.val, by omega⟩ rfl
  · rw [Value.flushed7_B m c t h0, Pieces.attnB]
    exact Tiles.attn_tile m c t ⟨t.val / 4, by omega⟩ rfl _
      (fun s' f => Tiles.scratch_apply m c (t.val - 1) _ ⟨t.val / 4, by omega⟩ (by show t.val / 4 = (t.val - 1) / 4; omega) s' f)
      u r s ⟨256 * (t.val % 4) + r.val, by omega⟩ rfl

/-- An index of the array is in point t's block iff each coordinate is in the block's range on its axis. -/
theorem mem_blk7 (t : Fin cfg0.N) (i : S32x1024x1024.Idx) :
    i ∈ ((cfg0.win 7).blk t).view.set ↔ ∀ a : Fin 3, win0_7.index t a * S1x256x1024.size a ≤ (i a).val ∧ (i a).val < win0_7.index t a * S1x256x1024.size a + S1x256x1024.size a := by
  show i ∈ ((View.whole main_v0_1).slice (win0_7.rect t)).set ↔ _
  rw [View.set_slice_whole, Rect.mem_set_unit]
  exact Iff.rfl

/-- Every index of the array is in the block of the point of its batch and q-tile. -/
theorem cover7 (i : S32x1024x1024.Idx) : ∃ t : Fin cfg0.N, (cfg0.win 7).flush t = true ∧ i ∈ ((cfg0.win 7).blk t).view.set := by
  have h0 : (i 0).val < 32 := (i 0).isLt
  have h1 : (i 1).val < 1024 := (i 1).isLt
  have h2 : (i 2).val < 1024 := (i 2).isLt
  have hlt : 4 * (i 0).val + (i 1).val / 256 < cfg0.N := by rw [show cfg0.N = 128 from N_0]; omega
  refine ⟨⟨4 * (i 0).val + (i 1).val / 256, hlt⟩, flush0_7 _, ?_⟩
  have hf := Blocks.idx_facts ⟨4 * (i 0).val + (i 1).val / 256, hlt⟩
  rw [mem_blk7]
  intro a
  match a with
  | ⟨0, _⟩ =>
    show win0_7.index _ (0 : Fin 3) * 1 ≤ (i 0).val ∧ (i 0).val < win0_7.index _ (0 : Fin 3) * 1 + 1
    rw [hf.2.2.2.2.2.2.2.1]; dsimp only; omega
  | ⟨1, _⟩ =>
    show win0_7.index _ (1 : Fin 3) * 256 ≤ (i 1).val ∧ (i 1).val < win0_7.index _ (1 : Fin 3) * 256 + 256
    rw [hf.2.2.2.2.2.2.2.2.1]; dsimp only; omega
  | ⟨2, _⟩ =>
    show win0_7.index _ (2 : Fin 3) * 1024 ≤ (i 2).val ∧ (i 2).val < win0_7.index _ (2 : Fin 3) * 1024 + 1024
    rw [hf.2.2.2.2.2.2.2.2.2]; omega

/-- So the array ends holding the function, whole. -/
theorem final7 (c : Dev nD) : (dats m 0 c).arrAt 7 cfg0.N = Tiles.attnOf m c :=
  (dats m 0 c).arrAt_eq_of_cover 7 (Tiles.attnOf m c) (fun t _ => flushed7_eq m c t) cover7

/-- What point t writes back to the context array is block t of the context function. -/
theorem flushed6_eq (c : Dev nD) (t : Fin cfg0.N) :
    (dats m 0 c).flushed 6 t = ((cfg0.win 6).blk t).view.read (Elt Ideal) (Tiles.ctxOf m c) := by
  have hN : t.val < 128 := lt_of_lt_of_eq t.isLt (show cfg0.N = 128 from N_0)
  have hf := Blocks.idx_facts t
  funext j
  obtain ⟨u, r, d, rfl⟩ : ∃ (u : Fin 1) (r : Fin 256) (d : Fin 256), j = ix3 u r d := ⟨j 0, j 1, j 2, eq_ix3 j⟩
  rw [View.read_apply]
  have hemb : ((cfg0.win 6).blk t).view.emb (ix3 u r d)
      = ix3 (⟨t.val / 4, by omega⟩ : Fin 32) (⟨256 * (t.val % 4) + r.val, by omega⟩ : Fin 1024) d :=
    funext fun a => Fin.ext (by
      match a with
      | ⟨0, _⟩ => show win0_6.index t (0 : Fin 3) * 1 + 1 * u.val = t.val / 4; rw [hf.2.2.2.2.2.2.1.1]; omega
      | ⟨1, _⟩ => show win0_6.index t (1 : Fin 3) * 256 + 1 * r.val = 256 * (t.val % 4) + r.val; rw [hf.2.2.2.2.2.2.1.2.1]; omega
      | ⟨2, _⟩ => show win0_6.index t (2 : Fin 3) * 256 + 1 * d.val = d.val; rw [hf.2.2.2.2.2.2.1.2.2]; omega)
  rw [hemb]
  by_cases h0 : t.val % 4 = 0
  · rw [Value.flushed6_A m c t h0, Pieces.ctxA]
    exact Tiles.ctx_tile m c t ⟨t.val / 4, by omega⟩ rfl _ (fun s' f => Tiles.keyBlock_point m c t ⟨t.val / 4, by omega⟩ rfl s' f)
      u r d ⟨256 * (t.val % 4) + r.val, by omega⟩ rfl
  · rw [Value.flushed6_B m c t h0, Pieces.ctxB]
    exact Tiles.ctx_tile m c t ⟨t.val / 4, by omega⟩ rfl _
      (fun s' f => Tiles.scratch_apply m c (t.val - 1) _ ⟨t.val / 4, by omega⟩ (by show t.val / 4 = (t.val - 1) / 4; omega) s' f)
      u r d ⟨256 * (t.val % 4) + r.val, by omega⟩ rfl

/-- An index of the array is in point t's block iff each coordinate is in the block's range on its axis. -/
theorem mem_blk6 (t : Fin cfg0.N) (i : S32x1024x256.Idx) :
    i ∈ ((cfg0.win 6).blk t).view.set ↔ ∀ a : Fin 3, win0_6.index t a * S1x256x256.size a ≤ (i a).val ∧ (i a).val < win0_6.index t a * S1x256x256.size a + S1x256x256.size a := by
  show i ∈ ((View.whole main_v0_0).slice (win0_6.rect t)).set ↔ _
  rw [View.set_slice_whole, Rect.mem_set_unit]
  exact Iff.rfl

/-- Every index of the array is in the block of the point of its batch and q-tile. -/
theorem cover6 (i : S32x1024x256.Idx) : ∃ t : Fin cfg0.N, (cfg0.win 6).flush t = true ∧ i ∈ ((cfg0.win 6).blk t).view.set := by
  have h0 : (i 0).val < 32 := (i 0).isLt
  have h1 : (i 1).val < 1024 := (i 1).isLt
  have h2 : (i 2).val < 256 := (i 2).isLt
  have hlt : 4 * (i 0).val + (i 1).val / 256 < cfg0.N := by rw [show cfg0.N = 128 from N_0]; omega
  refine ⟨⟨4 * (i 0).val + (i 1).val / 256, hlt⟩, flush0_6 _, ?_⟩
  have hf := Blocks.idx_facts ⟨4 * (i 0).val + (i 1).val / 256, hlt⟩
  rw [mem_blk6]
  intro a
  match a with
  | ⟨0, _⟩ =>
    show win0_6.index _ (0 : Fin 3) * 1 ≤ (i 0).val ∧ (i 0).val < win0_6.index _ (0 : Fin 3) * 1 + 1
    rw [hf.2.2.2.2.2.2.1.1]; dsimp only; omega
  | ⟨1, _⟩ =>
    show win0_6.index _ (1 : Fin 3) * 256 ≤ (i 1).val ∧ (i 1).val < win0_6.index _ (1 : Fin 3) * 256 + 256
    rw [hf.2.2.2.2.2.2.1.2.1]; dsimp only; omega
  | ⟨2, _⟩ =>
    show win0_6.index _ (2 : Fin 3) * 256 ≤ (i 2).val ∧ (i 2).val < win0_6.index _ (2 : Fin 3) * 256 + 256
    rw [hf.2.2.2.2.2.2.1.2.2]; omega

/-- So the array ends holding the function, whole. -/
theorem final6 (c : Dev nD) : (dats m 0 c).arrAt 6 cfg0.N = Tiles.ctxOf m c :=
  (dats m 0 c).arrAt_eq_of_cover 6 (Tiles.ctxOf m c) (fun t _ => flushed6_eq m c t) cover6

/-- The kernel's run: the two result arrays at the context and attention functions of the arguments, the arguments
    unchanged. -/
theorem run : θ_run defs (onTc (τ := τ) (main (F := Ideal))) ⟨m, fun _ => 0, ρ⟩ fun r => ∀ c : Dev nD,
      r.2.mem ((c : Thread nD τ).loc main_v0_0) = Tiles.ctxOf m c
      ∧ r.2.mem ((c : Thread nD τ).loc main_v0_1) = Tiles.attnOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final6 m c), (h c).2.1.trans (final7 m c), (h c).2.2⟩)
    (Cert.KernelIdeal.Value.run_blocks m ρ)

end Cert.KernelIdeal.Result

end
-- ==== Proof.RefValue.lean ====
/-
  The reference program's two results are the attention function of its arguments, entry by entry.

  Its stages, read at an index: the two projections and the scores are sums of products over the contracted axis;
  dividing by √256 is multiplying by 1/16; the mask's select is the row-level logit; jax's softmax takes the row
  maximum from −∞ and once more against −∞, which changes nothing; the exponentials, their row sum (from 0) and the
  quotient are the row-level weights and attention; the last product is the row-level context.
-/
import proofs.«176372_j15135464751719_2_alg».proof.Proof.Gen.ReferenceIdeal.Read
import proofs.«176372_j15135464751719_2_alg».proof.Proof.Spec
import Idealize.ShloMosaic.PureOps.Reduce

set_option maxRecDepth 16384

noncomputable section

open scoped BigOperators
open Idealize.ShloMosaic Idealize.ShloMosaic.ValueIdx

namespace Cert.ReferenceIdeal.RefValue

open Cert.ReferenceIdeal Cert.ReferenceIdeal.Gen Cert.ReferenceIdeal.Read

/-- Taking the maximum with the starting value of a fold of max changes nothing. -/
theorem max_fold_max {ι : Type} (s : Finset ι) (b : EReal) (g : ι → EReal) : max b (s.fold max b g) = s.fold max b g :=
  max_eq_right ((Finset.le_fold_max b).mpr (Or.inl le_rfl))

/-- The masked scaled score the reference computes at (b, t, s) is the row-level logit. -/
theorem logit_eq (x0 : (⟨S32x1024x512, .f32⟩ : BufTy).Contents (Elt Ideal)) (x1 : (⟨S32x1024x256, .f32⟩ : BufTy).Contents (Elt Ideal)) (x3 : (⟨S32x1024x1024, .i32⟩ : BufTy).Contents (Elt Ideal)) (x4 : (⟨S512x128, .f32⟩ : BufTy).Contents (Elt Ideal)) (x5 : (⟨S256x128, .f32⟩ : BufTy).Contents (Elt Ideal)) (b : Fin 32) (t s : Fin 1024) :
    val_main_v8 (F := Ideal) x0 x1 x3 x4 x5 (ix3 b t s) = Cert.Attention.rowLogit (fun d => x0 (ix3 b t d)) (fun d f => x4 (ix2 d f)) (Cert.Attention.keyProj x1 x5 b) (fun s' => x3 (ix3 b t s')) s := by
  have hl0 : ∀ (k : Fin 128) (d : Fin 512), lidx_main_v0 (lidx_main_v2 (ix3 b t s) k) d = ix3 b t d :=
    fun k d => funext fun a => Fin.ext (by match a with | ⟨0, _⟩ => rfl | ⟨1, _⟩ => rfl | ⟨2, _⟩ => rfl)
  have hr0 : ∀ (k : Fin 128) (d : Fin 512), ridx_main_v0 (lidx_main_v2 (ix3 b t s) k) d = ix2 d k :=
    fun k d => funext fun a => Fin.ext (by match a with | ⟨0, _⟩ => rfl | ⟨1, _⟩ => rfl)
  have hl1 : ∀ (k : Fin 128) (d : Fin 256), lidx_main_v1 (ridx_main_v2 (ix3 b t s) k) d = ix3 b s d :=
    fun k d => funext fun a => Fin.ext (by match a with | ⟨0, _⟩ => rfl | ⟨1, _⟩ => rfl | ⟨2, _⟩ => rfl)
  have hr1 : ∀ (k : Fin 128) (d : Fin 256), ridx_main_v1 (ridx_main_v2 (ix3 b t s) k) d = ix2 d k :=
    fun k d => funext fun a => Fin.ext (by match a with | ⟨0, _⟩ => rfl | ⟨1, _⟩ => rfl)
  rw [val_main_v8_apply, val_main_v7_apply, val_main_v6_apply, val_main_c_apply, val_main_call0_v0_apply,
    val_main_cst_0_apply, val_main_v5_apply, val_main_v4_apply, val_main_v3_apply, val_main_cst_apply, val_main_v2_apply]
  simp only [val_main_v0_apply, val_main_v1_apply, hl0, hr0, hl1, hr1, Ideal.hostDivf_def, Ideal.hostUnary_sqrt_def,
    Ideal.ofBits_def, Cert.Attention.div_sqrt_256]
  rfl

/-- The reference's row maximum at (b, t) is the row-level maximum. -/
theorem rowMax_eq (x0 : (⟨S32x1024x512, .f32⟩ : BufTy).Contents (Elt Ideal)) (x1 : (⟨S32x1024x256, .f32⟩ : BufTy).Contents (Elt Ideal)) (x3 : (⟨S32x1024x1024, .i32⟩ : BufTy).Contents (Elt Ideal)) (x4 : (⟨S512x128, .f32⟩ : BufTy).Contents (Elt Ideal)) (x5 : (⟨S256x128, .f32⟩ : BufTy).Contents (Elt Ideal)) (b : Fin 32) (t : Fin 1024) :
    val_main_v11 (F := Ideal) x0 x1 x3 x4 x5 (ix2 b t) = Cert.Attention.rowMax (fun d => x0 (ix3 b t d)) (fun d f => x4 (ix2 d f)) (Cert.Attention.keyProj x1 x5 b) (fun s' => x3 (ix3 b t s')) := by
  have hred : S32x1024x1024.Reduces [2] S32x1024 := by decide
  have hlift : ∀ k : Fin 1024, hred.lift (ix2 b t) k = ix3 b t k :=
    fun k => funext fun a => Fin.ext (by match a with | ⟨0, _⟩ => rfl | ⟨1, _⟩ => rfl | ⟨2, _⟩ => rfl)
  rw [val_main_v11_apply, val_main_v10_apply, val_main_cst_2_apply]
  unfold val_main_v9
  rw [Host.reduce_eq_fold_single FloatOps.maximumf _ _ reducesTo_S32x1024x1024_S32x1024_d2 hred h_S_ (ix2 b t),
    val_main_cst_1_apply]
  have hg : (val_main_v8 (F := Ideal) x0 x1 x3 x4 x5 ∘ hred.lift (ix2 b t))
      = Cert.Attention.rowLogit (fun d => x0 (ix3 b t d)) (fun d f => x4 (ix2 d f)) (Cert.Attention.keyProj x1 x5 b) (fun s' => x3 (ix3 b t s')) :=
    funext fun k => (congrArg (val_main_v8 (F := Ideal) x0 x1 x3 x4 x5) (hlift k)).trans (logit_eq x0 x1 x3 x4 x5 b t k)
  rw [hg]
  exact max_fold_max _ _ _

/-- The reference's exponentials at (b, t, s) are the row-level weights. -/
theorem weight_eq (x0 : (⟨S32x1024x512, .f32⟩ : BufTy).Contents (Elt Ideal)) (x1 : (⟨S32x1024x256, .f32⟩ : BufTy).Contents (Elt Ideal)) (x3 : (⟨S32x1024x1024, .i32⟩ : BufTy).Contents (Elt Ideal)) (x4 : (⟨S512x128, .f32⟩ : BufTy).Contents (Elt Ideal)) (x5 : (⟨S256x128, .f32⟩ : BufTy).Contents (Elt Ideal)) (b : Fin 32) (t s : Fin 1024) :
    val_main_v15 (F := Ideal) x0 x1 x3 x4 x5 (ix3 b t s) = Cert.Attention.rowWeight (fun d => x0 (ix3 b t d)) (fun d f => x4 (ix2 d f)) (Cert.Attention.keyProj x1 x5 b) (fun s' => x3 (ix3 b t s')) s := by
  have hi : idx_main_v12 (idx_main_v13 (ix3 b t s)) = ix2 b t :=
    funext fun a => Fin.ext (by match a with | ⟨0, _⟩ => rfl | ⟨1, _⟩ => rfl)
  rw [val_main_v15_apply, val_main_v14_apply, val_main_v13_apply, val_main_v12_apply, hi, logit_eq, rowMax_eq]
  rfl

/-- The reference's first result is the attention function. -/
theorem attn_eq (x0 : (⟨S32x1024x512, .f32⟩ : BufTy).Contents (Elt Ideal)) (x1 : (⟨S32x1024x256, .f32⟩ : BufTy).Contents (Elt Ideal)) (x3 : (⟨S32x1024x1024, .i32⟩ : BufTy).Contents (Elt Ideal)) (x4 : (⟨S512x128, .f32⟩ : BufTy).Contents (Elt Ideal)) (x5 : (⟨S256x128, .f32⟩ : BufTy).Contents (Elt Ideal)) :
    val_main_v19 (F := Ideal) x0 x1 x3 x4 x5 = Cert.Attention.attn x0 x1 x3 x4 x5 := by
  funext i
  obtain ⟨b, t, s, rfl⟩ : ∃ (b : Fin 32) (t s : Fin 1024), i = ix3 b t s := ⟨i 0, i 1, i 2, eq_ix3 i⟩
  have hi : idx_main_v17 (idx_main_v18 (ix3 b t s)) = ix2 b t :=
    funext fun a => Fin.ext (by match a with | ⟨0, _⟩ => rfl | ⟨1, _⟩ => rfl)
  have hk : ∀ k : Fin 1024, idx_main_v16 (ix2 b t) k = ix3 b t k :=
    fun k => funext fun a => Fin.ext (by match a with | ⟨0, _⟩ => rfl | ⟨1, _⟩ => rfl | ⟨2, _⟩ => rfl)
  rw [val_main_v19_apply, val_main_v18_apply, val_main_v17_apply, hi, val_main_v16_apply, val_main_cst_3_apply, weight_eq]
  simp only [hk, weight_eq, Ideal.ofBits_def, Ideal.ofBits_zero_f32, zero_add, Ideal.hostDivf_def]
  rfl

/-- The reference's second result is the context function. -/
theorem ctx_eq (x0 : (⟨S32x1024x512, .f32⟩ : BufTy).Contents (Elt Ideal)) (x1 : (⟨S32x1024x256, .f32⟩ : BufTy).Contents (Elt Ideal)) (x3 : (⟨S32x1024x1024, .i32⟩ : BufTy).Contents (Elt Ideal)) (x4 : (⟨S512x128, .f32⟩ : BufTy).Contents (Elt Ideal)) (x5 : (⟨S256x128, .f32⟩ : BufTy).Contents (Elt Ideal)) (x2 : (⟨S32x1024x256, .f32⟩ : BufTy).Contents (Elt Ideal)) :
    val_main_v20 (F := Ideal) x0 x1 x2 x3 x4 x5 = Cert.Attention.ctx x0 x1 x2 x3 x4 x5 := by
  funext i
  obtain ⟨b, t, d, rfl⟩ : ∃ (b : Fin 32) (t : Fin 1024) (d : Fin 256), i = ix3 b t d := ⟨i 0, i 1, i 2, eq_ix3 i⟩
  have hl : ∀ k : Fin 1024, lidx_main_v20 (ix3 b t d) k = ix3 b t k :=
    fun k => funext fun a => Fin.ext (by match a with | ⟨0, _⟩ => rfl | ⟨1, _⟩ => rfl | ⟨2, _⟩ => rfl)
  have hr : ∀ k : Fin 1024, ridx_main_v20 (ix3 b t d) k = ix3 b k d :=
    fun k => funext fun a => Fin.ext (by match a with | ⟨0, _⟩ => rfl | ⟨1, _⟩ => rfl | ⟨2, _⟩ => rfl)
  rw [val_main_v20_apply, attn_eq]
  simp only [hl, hr]
  rfl

end Cert.ReferenceIdeal.RefValue

end
-- ==== Proof.lean ====
/-
  The kernel — query and key projections, scaled masked scores, a softmax along each row and the product with the
  values, fused in one call over a grid of 32 batches × 4 q-tiles, the projected keys of a batch kept in a scratch
  buffer from the batch's first q-tile on — against its plain reference, on the extended reals.

  Both programs compute, entry by entry, the attention function of Proof/Spec.lean of the six argument arrays:
    * the kernel, because each grid point writes back one block of it (Proof/Result.lean, over the per-point values of
      Proof/Tiles.lean, the body's arithmetic of Proof/Body.lean and the run's pieces of Proof/Pieces.lean), and the
      blocks tile the two result arrays;
    * the reference, stage by stage (Proof/RefValue.lean).
  The one arithmetic law between the two sides is that dividing by √256 is multiplying by 1/16, which holds on every
  extended real; every sum has the same terms on both sides, so finiteness of the inputs is never used.
  The idealization rewrote nothing, so there is nothing to preserve; the three frames are the generated frame of each
  kernel program and the reference's run with its results dropped.
-/
import proofs.«176372_j15135464751719_2_alg».proof.Defs
import proofs.«176372_j15135464751719_2_alg».proof.Proof.Gen.Kernel
import proofs.«176372_j15135464751719_2_alg».proof.Proof.Gen.Kernel.Skeleton
import proofs.«176372_j15135464751719_2_alg».proof.Proof.Gen.Kernel.Launch
import proofs.«176372_j15135464751719_2_alg».proof.Proof.Gen.Kernel.Points
import proofs.«176372_j15135464751719_2_alg».proof.Proof.Gen.Kernel.Frame
import proofs.«176372_j15135464751719_2_alg».proof.Proof.Gen.KernelIdeal
import proofs.«176372_j15135464751719_2_alg».proof.Proof.Gen.KernelIdeal.Skeleton
import proofs.«176372_j15135464751719_2_alg».proof.Proof.Gen.KernelIdeal.Launch
import proofs.«176372_j15135464751719_2_alg».proof.Proof.Gen.KernelIdeal.Points
import proofs.«176372_j15135464751719_2_alg».proof.Proof.Gen.KernelIdeal.Frame
import proofs.«176372_j15135464751719_2_alg».proof.Proof.Gen.KernelIdeal.Value
import proofs.«176372_j15135464751719_2_alg».proof.Proof.Gen.ReferenceIdeal
import proofs.«176372_j15135464751719_2_alg».proof.Proof.Gen.ReferenceIdeal.Run
import proofs.«176372_j15135464751719_2_alg».proof.Proof.Gen.ReferenceIdeal.Read
import proofs.«176372_j15135464751719_2_alg».proof.Proof.Gen.Pre_finite_inputs
import proofs.«176372_j15135464751719_2_alg».proof.Proof.Result
import proofs.«176372_j15135464751719_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

/-- From memories that agree on the six arguments both programs end with the context vectors and the attention
    weights of those arguments. -/
theorem algebraic : Cert.algebraic_KernelIdeal_ReferenceIdeal := by
  intro m ρ m' ρ' _ hagree
  refine ⟨fun c => Cert.KernelIdeal.Tiles.ctxOf m c, fun c => Cert.KernelIdeal.Tiles.attnOf m c,
    Cert.KernelIdeal.Result.run m ρ, ?_⟩
  refine (θ_run Cert.ReferenceIdeal.defs _ _).mono
    (fun _ h c => ⟨(h c).1.trans ?_, (h c).2.1.trans ?_, (h c).2.2⟩)
    (Cert.ReferenceIdeal.Value.run (F := Ideal) m' ρ')
  · rw [Cert.ReferenceIdeal.Read.val_main_v20_eq, Cert.ReferenceIdeal.RefValue.ctx_eq, (hagree c).1, (hagree c).2.1,
      (hagree c).2.2.1, (hagree c).2.2.2.1, (hagree c).2.2.2.2.1, (hagree c).2.2.2.2.2]
  · rw [Cert.ReferenceIdeal.Read.val_main_v19_eq, Cert.ReferenceIdeal.RefValue.attn_eq, (hagree c).1, (hagree c).2.1,
      (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
